-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S128x1024 .f32) (main_arg1 : FVec F S1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S128x1024 : Shape := ⟨2, ![128, 1024]⟩
abbrev S1024x1024 : Shape := ⟨2, ![1024, 1024]⟩
abbrev S1x1 : Shape := ⟨2, ![1, 1]⟩
abbrev S128x128 : Shape := ⟨2, ![128, 128]⟩
abbrev S128x1x128 : Shape := ⟨3, ![128, 1, 128]⟩
abbrev S128x128x1 : Shape := ⟨3, ![128, 128, 1]⟩
abbrev S128x128x128 : Shape := ⟨3, ![128, 128, 128]⟩
abbrev S1x128x128 : Shape := ⟨3, ![1, 128, 128]⟩
abbrev S128 : Shape := ⟨1, ![128]⟩
abbrev S128x1 : Shape := ⟨2, ![128, 1]⟩
abbrev S1 : Shape := ⟨1, ![1]⟩
abbrev S_ : Shape := ⟨0, ![]⟩

abbrev nBuf : Space → Nat
  | .hbm => 4
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1x1, .f32⟩
  | .hbm, ⟨3, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v40 : BitVec 1 := Scalar.cmpi .eq arg0 c7_i32
  let arg1 : BitVec 32 := BitVec.ofNat 32 (i 1).val
  let c7_i32_20 : BitVec 32 := 7#32
  let v41 : BitVec 1 := Scalar.cmpi .eq arg1 c7_i32_20
  let v42 : BitVec 1 := Scalar.andi v40 v41
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  shapeCasts_S128x128_S128x1x128 : S128x128.ShapeCasts S128x1x128
  shapeCasts_S128x128_S128x128x1 : S128x128.ShapeCasts S128x128x1
  broadcasts_S128x1x128_S128x128x128 : S128x1x128.Broadcasts S128x128x128
  broadcasts_S128x128x1_S128x128x128 : S128x128x1.Broadcasts S128x128x128
  shapeCasts_S128x128_S1x128x128 : S128x128.ShapeCasts S1x128x128
  broadcasts_S1x128x128_S128x128x128 : S1x128x128.Broadcasts S128x128x128
  reduces_S128x128x128_S128x128 : S128x128x128.Reduces [2] S128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x1024.size a
  hwx0_0 : ∀ i : grid0.Coords, EltTy.bits .f32 = 32 ∨ (Rect.block (s := S128x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x1024.size a
  hwx0_1 : ∀ i : grid0.Coords, EltTy.bits .f32 = 32 ∨ (Rect.block (s := S128x1024) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x1024 : Shape := ⟨2, ![1024, 1024]⟩
abbrev S128x1x1024 : Shape := ⟨3, ![128, 1, 1024]⟩
abbrev S128x1024x1 : Shape := ⟨3, ![128, 1024, 1]⟩
abbrev S128x1024x1024 : Shape := ⟨3, ![128, 1024, 1024]⟩
abbrev S1x1024x1024 : Shape := ⟨3, ![1, 1024, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S128x1x1024, .f32⟩
  | .hbm, ⟨3, _⟩ => ⟨S128x1024x1, .f32⟩
  | .hbm, ⟨4, _⟩ => ⟨S128x1024x1024, .f32⟩
  | .hbm, ⟨5, _⟩ => ⟨S128x1024x1024, .f32⟩
  | .hbm, ⟨6, _⟩ => ⟨S128x1024x1024, .f32⟩
  | .hbm, ⟨7, _⟩ => ⟨S128x1024x1024, .f32⟩
  | .hbm, ⟨8, _⟩ => ⟨S1x1024x1024, .f32⟩
  | .hbm, ⟨9, _⟩ => ⟨S128x1024x1024, .f32⟩
  | .hbm, ⟨10, _⟩ => ⟨S128x1024x1024, .f32⟩
  | .hbm, ⟨11, _⟩ => ⟨S_, .f32⟩
  | .hbm, ⟨12, _⟩ => ⟨S1024x1024, .f32⟩
  | .hbm, ⟨13, _⟩ => ⟨S1024x1024, .i1⟩
  | .hbm, ⟨14, _⟩ => ⟨S1024x1024, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S128x1024_S128x1x1024_0_2 : S128x1024.BroadcastsInDim S128x1x1024 (![0, 2] : Fin 2 → Fin S128x1x1024.rank)
  bcast_S128x1024_S128x1024x1_0_1 : S128x1024.BroadcastsInDim S128x1024x1 (![0, 1] : Fin 2 → Fin S128x1024x1.rank)
  bcast_S128x1x1024_S128x1024x1024_0_1_2 : S128x1x1024.BroadcastsInDim S128x1024x1024 (![0, 1, 2] : Fin 3 → Fin S128x1024x1024.rank)
  bcast_S128x1024x1_S128x1024x1024_0_1_2 : S128x1024x1.BroadcastsInDim S128x1024x1024 (![0, 1, 2] : Fin 3 → Fin S128x1024x1024.rank)
  bcast_S1024x1024_S1x1024x1024_1_2 : S1024x1024.BroadcastsInDim S1x1024x1024 (![1, 2] : Fin 2 → Fin S1x1024x1024.rank)
  bcast_S1x1024x1024_S128x1024x1024_0_1_2 : S1x1024x1024.BroadcastsInDim S128x1024x1024 (![0, 1, 2] : Fin 3 → Fin S128x1024x1024.rank)
  bcast_S_S1024x1024 : S_.BroadcastsInDim S1024x1024 (![] : Fin 0 → Fin S1024x1024.rank)
  reducesTo_S1024x1024_S_d0_1 : S1024x1024.ReducesTo [0, 1] S_
  h_S_ : 0 < S_.numel
  reducesTo_S128x1024x1024_S1024x1024_d0 : S128x1024x1024.ReducesTo [0] S1024x1024

variable [Facts₀]

class Facts : Prop extends Facts₀ where

variable [Facts]
-- ==== Proof.K.Shared.lean ====
/-
  What the three runs of the kernel body share: the arrays as the region finds them, each window's block at a
  grid point, the two branch conditions of the body in closed form over the 64 grid points (the first point
  zeroes the two running cells; the last point divides and stores the result), where the output window is idle,
  and the staging and scratch memrefs the body is called with.
-/
import proofs.«124996_j45552423141451_2_alg».proof.Proof.Gen.Kernel.Launch
import proofs.«124996_j45552423141451_2_alg».proof.Proof.Gen.Kernel.Skeleton
import proofs.«124996_j45552423141451_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the windows' blocks -/

/-- The TensorCore buffers as the region is entered: no host operation precedes it, so the launch contents. -/
abbrev V (c : Dev nD) (b : Ref sig .tc) : Buf (Elt F) ((c : Thread nD τ).loc b) := m ((c : Thread nD τ).loc b)

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point — fetched there or not: where it is not
    fetched the block index has not moved — for any proof data over these arrays whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is grid point (0, 0)": the condition under which the body zeroes both running cells. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcondFirst : ∀ t : Fin cfg0.N, condFirst (grid0.coords t) ↔ t.val % 64 = 0 :=
  (by decide +kernel : ∀ t : Fin grid0.N, condFirst (grid0.coords t) ↔ t.val % 64 = 0)

/-- "This is grid point (7, 7)": the condition under which the body stores the quotient into the output. -/
abbrev condLast (i : grid0.Coords) : Prop := k0_cond2 i = 1#1
/-- It holds at point 63 only. -/
theorem hcondLast : ∀ t : Fin cfg0.N, condLast (grid0.coords t) ↔ t.val % 64 = 63 :=
  (by decide +kernel : ∀ t : Fin grid0.N, condLast (grid0.coords t) ↔ t.val % 64 = 63)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
/-- Away from the last point the body stores nothing into the output window, and the pipeline does not write it back. -/
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
/-- At the last point it does. -/
theorem live3 : ∀ t : Fin cfg0.N, condLast (grid0.coords t) → cfg0.idle 3 (grid0.coords t) = false := by decide +kernel

/-! ## The memrefs the body is called with -/

/-- The output window's one staging buffer, as a view through which its contents are stated. -/
abbrev VO3 : View sig .tc .vmem S1x1 .f32 := (Memref.whole cc0_stg3_0 : Memref sig .tc .vmem S1x1 .f32).view
abbrev ms0 (t : Fin cfg0.N) : Memref sig .tc .vmem S128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The two running cells: whole scoped buffers of the kernel's own. -/
abbrev scM0 : Memref sig .tc .vmem S1x1 .f32 := Memref.whole cc0_scratch0
abbrev scM1 : Memref sig .tc .vmem S1x1 .f32 := Memref.whole cc0_scratch1
abbrev VS0 : View sig .tc .vmem S1x1 .f32 := scM0.view
abbrev VS1 : View sig .tc .vmem S1x1 .f32 := scM1.view

/-- The class's region invariant with the two running cells as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Hand

end
-- ==== Proof.K.RunFirst.lean ====
/-
  The kernel body run at the first grid point: both running cells are zeroed, then the point's block sums are
  added; the output window is left as found.
-/
import proofs.«124996_j45552423141451_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point (the zeroing branch taken, the storing branch not): on whole memrefs — the three inputs at
    their contents, the output at contents handed back untouched, the two cells at anything — the body runs to its
    end with the inputs as they were and each cell holding the pieces its stores wrote (the witness the run finds). -/
noncomputable def runFirst (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) :
    Σ' (L3 : List (View.Piece (Elt F) S1x1 .f32)) (LS0 : List (View.Piece (Elt F) S1x1 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨[], ?_, ?_, fun xi3 E K => ?run⟩
  case run =>
    simp only [cc0__kbc_kernel_eq_skeleton]; unfold cc0__kbc_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.RunMid.lean ====
/-
  The kernel body run at a middle grid point: the point's block sums are added to the two running cells; the
  output window is left as found.
-/
import proofs.«124996_j45552423141451_2_alg».proof.Proof.K.RunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point that is neither first nor last (neither branch taken): the two cells come in at what the point
    before left and leave holding the pieces this point's stores wrote. -/
noncomputable def runMid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) :
    Σ' (L3 : List (View.Piece (Elt F) S1x1 .f32)) (LS0 : List (View.Piece (Elt F) S1x1 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨[], ?_, ?_, fun xi3 E K => ?run⟩
  case run =>
    simp only [cc0__kbc_kernel_eq_skeleton]; unfold cc0__kbc_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.RunLast.lean ====
/-
  The kernel body run at the last grid point: the point's block sums are added to the two running cells, and the
  quotient (first cell / 128) / (second cell + ε) is stored into the output window.
-/
import proofs.«124996_j45552423141451_2_alg».proof.Proof.K.RunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point (the storing branch taken): the output's buffer, at anything, leaves holding the piece the
    store wrote. -/
noncomputable def runLast (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) :
    Σ' (L3 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨?_, ?_, ?_, fun E K => ?run⟩
  case run =>
    simp only [cc0__kbc_kernel_eq_skeleton]; unfold cc0__kbc_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.K.Body.lean ====
/-
  The kernel body at every grid point: what each run leaves in the output window and in the two running cells,
  point by point (a recursion over the 64 points: the first point starts the cells from zero, every later point
  adds its block sums to what the point before left, the last point also stores the quotient), the pipeline's proof
  data over these, and the body obligation.
  The two input windows on the batch array hold the left and the right half of its share; the weight matrix and
  the output are held whole.
-/
import proofs.«124996_j45552423141451_2_alg».proof.Proof.K.RunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

/-- What the output's staging buffer reads after the first-point run: its pieces written over junk (no piece: a placeholder nothing consults, the window being idle and not written back there). -/
def out3First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) : Vec F S1x1 .f32 :=
  VO3.read (Elt F) (VO3.writes (Elt F) VO3.junk (runFirst c i arg2 harg2 arg3 harg3 arg4 harg4 arg5 harg5 arg6 harg6 arg7 harg7 hc0 hc1 x0 x1 x2).1)
/-- The first-point run's pieces for the first running cell cover it. -/
theorem cov0First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) (y : S1x1.Idx) :
    ∃ pc ∈ (runFirst c i arg2 harg2 arg3 harg3 arg4 harg4 arg5 harg5 arg6 harg6 arg7 harg7 hc0 hc1 x0 x1 x2).2.1, y ∈ pc.1.set :=
  View.cover_of_tiledL (runFirst c i arg2 harg2 arg3 harg3 arg4 harg4 arg5 harg5 arg6 harg6 arg7 harg7 hc0 hc1 x0 x1 x2).2.1 S1x1.size (by sl_kernel_rfl) y
/-- What the first running cell reads after the first-point run. -/
def cell0First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) : Vec F S1x1 .f32 :=
  VS0.read (Elt F) (VS0.writes (Elt F) VS0.junk (runFirst c i arg2 harg2 arg3 harg3 arg4 harg4 arg5 harg5 arg6 harg6 arg7 harg7 hc0 hc1 x0 x1 x2).2.1)
/-- The first-point run's pieces for the second running cell cover it. -/
theorem cov1First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) (y : S1x1.Idx) :
    ∃ pc ∈ (runFirst c i arg2 harg2 arg3 harg3 arg4 harg4 arg5 harg5 arg6 harg6 arg7 harg7 hc0 hc1 x0 x1 x2).2.2.1, y ∈ pc.1.set :=
  View.cover_of_tiledL (runFirst c i arg2 harg2 arg3 harg3 arg4 harg4 arg5 harg5 arg6 harg6 arg7 harg7 hc0 hc1 x0 x1 x2).2.2.1 S1x1.size (by sl_kernel_rfl) y
/-- What the second running cell reads after the first-point run. -/
def cell1First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) : Vec F S1x1 .f32 :=
  VS1.read (Elt F) (VS1.writes (Elt F) VS1.junk (runFirst c i arg2 harg2 arg3 harg3 arg4 harg4 arg5 harg5 arg6 harg6 arg7 harg7 hc0 hc1 x0 x1 x2).2.2.1)

/-- What the output's staging buffer reads after the mid-point run: its pieces written over junk (no piece: a placeholder nothing consults, the window being idle and not written back there). -/
def out3Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) : Vec F S1x1 .f32 :=
  VO3.read (Elt F) (VO3.writes (Elt F) VO3.junk (runMid c i arg2 harg2 arg3 harg3 arg4 harg4 arg5 harg5 arg6 harg6 arg7 harg7 hc0 hc1 x0 x1 x2 xs0 xs1).1)
/-- The mid-point run's pieces for the first running cell cover it. -/
theorem cov0Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) (y : S1x1.Idx) :
    ∃ pc ∈ (runMid c i arg2 harg2 arg3 harg3 arg4 harg4 arg5 harg5 arg6 harg6 arg7 harg7 hc0 hc1 x0 x1 x2 xs0 xs1).2.1, y ∈ pc.1.set :=
  View.cover_of_tiledL (runMid c i arg2 harg2 arg3 harg3 arg4 harg4 arg5 harg5 arg6 harg6 arg7 harg7 hc0 hc1 x0 x1 x2 xs0 xs1).2.1 S1x1.size (by sl_kernel_rfl) y
/-- What the first running cell reads after the mid-point run. -/
def cell0Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) : Vec F S1x1 .f32 :=
  VS0.read (Elt F) (VS0.writes (Elt F) VS0.junk (runMid c i arg2 harg2 arg3 harg3 arg4 harg4 arg5 harg5 arg6 harg6 arg7 harg7 hc0 hc1 x0 x1 x2 xs0 xs1).2.1)
/-- The mid-point run's pieces for the second running cell cover it. -/
theorem cov1Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) (y : S1x1.Idx) :
    ∃ pc ∈ (runMid c i arg2 harg2 arg3 harg3 arg4 harg4 arg5 harg5 arg6 harg6 arg7 harg7 hc0 hc1 x0 x1 x2 xs0 xs1).2.2.1, y ∈ pc.1.set :=
  View.cover_of_tiledL (runMid c i arg2 harg2 arg3 harg3 arg4 harg4 arg5 harg5 arg6 harg6 arg7 harg7 hc0 hc1 x0 x1 x2 xs0 xs1).2.2.1 S1x1.size (by sl_kernel_rfl) y
/-- What the second running cell reads after the mid-point run. -/
def cell1Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) : Vec F S1x1 .f32 :=
  VS1.read (Elt F) (VS1.writes (Elt F) VS1.junk (runMid c i arg2 harg2 arg3 harg3 arg4 harg4 arg5 harg5 arg6 harg6 arg7 harg7 hc0 hc1 x0 x1 x2 xs0 xs1).2.2.1)

/-- What the output's staging buffer reads after the last-point run: its pieces written over junk. -/
def out3Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) : Vec F S1x1 .f32 :=
  VO3.read (Elt F) (VO3.writes (Elt F) VO3.junk (runLast c i arg2 harg2 arg3 harg3 arg4 harg4 arg5 harg5 arg6 harg6 arg7 harg7 hc0 hc1 x0 x1 x2 xs0 xs1).1)
/-- The last-point run's pieces for the first running cell cover it. -/
theorem cov0Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) (y : S1x1.Idx) :
    ∃ pc ∈ (runLast c i arg2 harg2 arg3 harg3 arg4 harg4 arg5 harg5 arg6 harg6 arg7 harg7 hc0 hc1 x0 x1 x2 xs0 xs1).2.1, y ∈ pc.1.set :=
  View.cover_of_tiledL (runLast c i arg2 harg2 arg3 harg3 arg4 harg4 arg5 harg5 arg6 harg6 arg7 harg7 hc0 hc1 x0 x1 x2 xs0 xs1).2.1 S1x1.size (by sl_kernel_rfl) y
/-- What the first running cell reads after the last-point run. -/
def cell0Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) : Vec F S1x1 .f32 :=
  VS0.read (Elt F) (VS0.writes (Elt F) VS0.junk (runLast c i arg2 harg2 arg3 harg3 arg4 harg4 arg5 harg5 arg6 harg6 arg7 harg7 hc0 hc1 x0 x1 x2 xs0 xs1).2.1)
/-- The last-point run's pieces for the second running cell cover it. -/
theorem cov1Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) (y : S1x1.Idx) :
    ∃ pc ∈ (runLast c i arg2 harg2 arg3 harg3 arg4 harg4 arg5 harg5 arg6 harg6 arg7 harg7 hc0 hc1 x0 x1 x2 xs0 xs1).2.2.1, y ∈ pc.1.set :=
  View.cover_of_tiledL (runLast c i arg2 harg2 arg3 harg3 arg4 harg4 arg5 harg5 arg6 harg6 arg7 harg7 hc0 hc1 x0 x1 x2 xs0 xs1).2.2.1 S1x1.size (by sl_kernel_rfl) y
/-- What the second running cell reads after the last-point run. -/
def cell1Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) : Vec F S1x1 .f32 :=
  VS1.read (Elt F) (VS1.writes (Elt F) VS1.junk (runLast c i arg2 harg2 arg3 harg3 arg4 harg4 arg5 harg5 arg6 harg6 arg7 harg7 hc0 hc1 x0 x1 x2 xs0 xs1).2.2.1)
/-- The last-point run's one store covers the output block. -/
theorem cov3Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) (y : S1x1.Idx) :
    ∃ pc ∈ (runLast c i arg2 harg2 arg3 harg3 arg4 harg4 arg5 harg5 arg6 harg6 arg7 harg7 hc0 hc1 x0 x1 x2 xs0 xs1).1, y ∈ pc.1.set :=
  View.cover_of_tiledL (runLast c i arg2 harg2 arg3 harg3 arg4 harg4 arg5 harg5 arg6 harg6 arg7 harg7 hc0 hc1 x0 x1 x2 xs0 xs1).1 S1x1.size (by sl_kernel_rfl) y

/-! ## Point by point -/

/-- After the body at position `n`: the output's staging buffer, the first running cell, the second running cell. -/
def outsAt (c : Dev nD) : (n : ℕ) → n < cfg0.N → Vec F S1x1 .f32 × Vec F S1x1 .f32 × Vec F S1x1 .f32
  | 0, hn => (out3First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩), cell0First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩), cell1First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩))
  | n + 1, hn =>
    if h0 : (n + 1) % 64 = 0 then
      False.elim (by have hN : n + 1 < 64 := lt_of_lt_of_eq hn (show cfg0.N = 64 from N_0); omega)
    else
      if h1 : (n + 1) % 64 = 63 then
        (out3Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2, cell0Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2, cell1Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2)
      else
        (out3Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2, cell0Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2, cell1Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2)

theorem outsAt_first (c : Dev nD) (t : Fin cfg0.N) (h0 : t.val % 64 = 0) (h1 : ¬t.val % 64 = 63) :
    outsAt m c t.val t.isLt = (out3First c (grid0.coords t) (ms0 t) (hs0 t) (ms1 t) (hs1 t) (ms2 t) (hs2 t) (ms3 t) (hs3 t) scM0 (Memref.isWhole_whole _) scM1 (Memref.isWhole_whole _) ((hcondFirst t).mpr h0) (fun h => h1 ((hcondLast t).mp h)) (iblk m c 0 t) (iblk m c 1 t) (iblk m c 2 t), cell0First c (grid0.coords t) (ms0 t) (hs0 t) (ms1 t) (hs1 t) (ms2 t) (hs2 t) (ms3 t) (hs3 t) scM0 (Memref.isWhole_whole _) scM1 (Memref.isWhole_whole _) ((hcondFirst t).mpr h0) (fun h => h1 ((hcondLast t).mp h)) (iblk m c 0 t) (iblk m c 1 t) (iblk m c 2 t), cell1First c (grid0.coords t) (ms0 t) (hs0 t) (ms1 t) (hs1 t) (ms2 t) (hs2 t) (ms3 t) (hs3 t) scM0 (Memref.isWhole_whole _) scM1 (Memref.isWhole_whole _) ((hcondFirst t).mpr h0) (fun h => h1 ((hcondLast t).mp h)) (iblk m c 0 t) (iblk m c 1 t) (iblk m c 2 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt_mid (c : Dev nD) (t : Fin cfg0.N) (h0 : ¬t.val % 64 = 0) (h1 : ¬t.val % 64 = 63) :
    outsAt m c t.val t.isLt = (out3Mid c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2, cell0Mid c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2, cell1Mid c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 64 = 0) (h1 : t.val % 64 = 63) :
    outsAt m c t.val t.isLt = (out3Last c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2, cell0Last c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2, cell1Last c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (both cells at anything);
    afterwards the two cells at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The pipeline's proof data -/

/-- The arrays as the region finds them; after the body each input's buffer at its block, the output's at
    `outsAt`'s first component; the invariant `PhiS`; nothing owed; the batch array's share halved between its two
    windows. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m c).A w = V m c (Pipeline.arrRef spec0 w) := by
  dsimp only [dats]

theorem PhiS_castSucc (c : Dev nD) (t : Fin cfg0.N) :
    (dats m c).Φ t.castSucc = PhiS m c t.val (Nat.le_of_lt t.isLt) := by
  dsimp only [dats]; simp only [Fin.coe_castSucc]

theorem after0 (c : Dev nD) (t : Fin cfg0.N) : (dats m c).after 0 t = iblk m c 0 t := by dsimp only [dats]
theorem after1 (c : Dev nD) (t : Fin cfg0.N) : (dats m c).after 1 t = iblk m c 1 t := by dsimp only [dats]
theorem after2 (c : Dev nD) (t : Fin cfg0.N) : (dats m c).after 2 t = iblk m c 2 t := by dsimp only [dats]
theorem after3 (c : Dev nD) (t : Fin cfg0.N) : (dats m c).after 3 t = (outsAt m c t.val t.isLt).1 := by dsimp only [dats]

theorem before0 (c : Dev nD) (t : Fin cfg0.N) (d) : (dats m c).before 0 t d = iblk m c 0 t :=
  before0_of m (dats m c) (A_eq m c 0) (after0 m c) t d
theorem before1 (c : Dev nD) (t : Fin cfg0.N) (d) : (dats m c).before 1 t d = iblk m c 1 t :=
  before1_of m (dats m c) (A_eq m c 1) (after1 m c) t d
theorem before2 (c : Dev nD) (t : Fin cfg0.N) (d) : (dats m c).before 2 t d = iblk m c 2 t :=
  before2_of m (dats m c) (A_eq m c 2) (after2 m c) t d

/-! ## The body obligation -/

def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d)))

def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t)

theorem leaves0 (c : Dev nD) (t : Fin cfg0.N) : (dats m c).leavesExact 0 t = owns (c : Thread nD τ) (ms0 t) fullShare (iblk m c 0 t) := by
  unfold Dat.leavesExact; rw [live0 t, after0]
theorem leaves1 (c : Dev nD) (t : Fin cfg0.N) : (dats m c).leavesExact 1 t = owns (c : Thread nD τ) (ms1 t) fullShare (iblk m c 1 t) := by
  unfold Dat.leavesExact; rw [live1 t, after1]
theorem leaves2 (c : Dev nD) (t : Fin cfg0.N) : (dats m c).leavesExact 2 t = owns (c : Thread nD τ) (ms2 t) fullShare (iblk m c 2 t) := by
  unfold Dat.leavesExact; rw [live2 t, after2]

set_option maxHeartbeats 4800000 in
/-- The body at any point. The three inputs' buffers hold their blocks; the closed forms say which run applies; the
    invariant hands the run the two cells (at anything at the first point, at what the point before left afterwards)
    and takes them back at this point's contents; away from the last point the output's buffer goes back untouched,
    at the last point it holds the stored quotient. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m c).owesAt () t.succ = (dats m c).owesAt () t.castSucc from rfl]
  rw [show (dats m c).Φ t.succ = PhiS m c (t.val + 1) t.isLt from rfl, PhiS_succ]
  rw [leaves0, leaves1, leaves2]
  have hN : t.val < 64 := lt_of_lt_of_eq t.isLt (show cfg0.N = 64 from N_0)
  by_cases h0 : t.val % 64 = 0
  · have h1 : ¬t.val % 64 = 63 := by omega
    have hz : t.val = 0 := by omega
    rw [Dat.leavesExact_idle (dats m c) 3 t (idle3 t (fun h => h1 ((hcondLast t).mp h))) (noFlush3 t (fun h => h1 ((hcondLast t).mp h)))]
    rw [outsAt_first m c t h0 h1]
    unfold cell0First cell1First; (try dsimp only)
    rw [PhiS_castSucc m c t, PhiS_zero m c _ _ hz, PhiA_eq]
    iintro ⟨⟨⟨HS0, HS1⟩, Hg⟩, Ho, ⟨%d0, H0⟩, ⟨%d1, H1⟩, ⟨%d2, H2⟩, ⟨%d3, H3⟩⟩
    iapply ((runFirst c (grid0.coords t) _ _ _ _ _ _ _ _ _ _ _ _ ((hcondFirst t).mpr h0) (fun h => h1 ((hcondLast t).mp h)) (iblk m c 0 t) (iblk m c 1 t) (iblk m c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (cov0First c _ _ _ _ _ _ _ _ _ _ _ _ _ _ _ _ _ _)
        · unfold owns; iexists _; isplitr
          swap; · iexact HS1
          ipureintro; exact View.read_writes_of_cover _ _ _ _ _ (cov1First c _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 64 = 63
    · rw [show (dats m c).leavesExact 3 t = owns (c : Thread nD τ) (ms3 t) fullShare ((dats m c).after 3 t) from by
        unfold Dat.leavesExact; rw [live3 t ((hcondLast t).mpr h1)], after3]
      rw [outsAt_last m c t h0 h1]
      unfold out3Last cell0Last cell1Last; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runLast c (grid0.coords t) _ _ _ _ _ _ _ _ _ _ _ _ (fun h => h0 ((hcondFirst t).mp h)) ((hcondLast t).mpr h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cov0Last c _ _ _ _ _ _ _ _ _ _ _ _ _ _ _ _ _ _ _ _)
          · unfold owns; iexists _; isplitr
            swap; · iexact HS1
            ipureintro; exact View.read_writes_of_cover _ _ _ _ _ (cov1Last c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cov3Last c _ _ _ _ _ _ _ _ _ _ _ _ _ _ _ _ _ _ _ _)
    · rw [Dat.leavesExact_idle (dats m c) 3 t (idle3 t (fun h => h1 ((hcondLast t).mp h))) (noFlush3 t (fun h => h1 ((hcondLast t).mp h)))]
      rw [outsAt_mid m c t h0 h1]
      unfold cell0Mid cell1Mid; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runMid c (grid0.coords t) _ _ _ _ _ _ _ _ _ _ _ _ (fun h => h0 ((hcondFirst t).mp h)) (fun h => h1 ((hcondLast t).mp h)) (iblk m c 0 t) (iblk m c 1 t) (iblk m c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cov0Mid c _ _ _ _ _ _ _ _ _ _ _ _ _ _ _ _ _ _ _ _)
          · unfold owns; iexists _; isplitr
            swap; · iexact HS1
            ipureintro; exact View.read_writes_of_cover _ _ _ _ _ (cov1Mid c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- After any point but the first the invariant gives the class's back: the cells' named contents are forgotten. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m c).Φ (Fin.last cfg0.N) ⊢ Pipeline.ΦA spec0 c :=
  Phi_out m c _ (by rw [Fin.val_last]; have : cfg0.N = 64 := N_0; omega)

end Cert.Kernel.Hand

end
-- ==== Proof.K.Launch.lean ====
import proofs.«124996_j45552423141451_2_alg».proof.Proof.Gen.Kernel.Launch
import proofs.«124996_j45552423141451_2_alg».proof.Proof.Gen.Kernel.Skeleton
import proofs.«124996_j45552423141451_2_alg».proof.Proof.Gen.Kernel.Points
import Idealize.ShloMosaic.Lib.Pipeline.FrameSuffix
import Idealize.ShloMosaic.Lib.Pipeline.Value
import Idealize.ShloMosaic.Lib.ValueIdx

/-! # The launch theorem of the kernel's one pipeline

The program's entry function is one pipelined region followed by one host reshape of the 1×1 result to a scalar. Two of
the region's four windows read the same argument array, so the launch splits that array's full share into its two
halves, one per window; the third input and the output are held at the full share. From a body obligation of any proof
data with those shares, this module derives the run of the whole entry function: the scalar result is the output
window's array after the last write-back, read at the rank-0 shape, and the two arguments are unchanged. Everything is
stated for any float instance. -/

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The scalar the host reshape leaves: the 1×1 result read in row-major order at the rank-0 shape. -/
def scalarOf {c : Dev nD} (a : Buf (Elt F) ((cfg0.win 3).arr.view.loc (c.tc : Thread nD τ))) :
    Buf (Elt F) ((c.tc : Thread nD τ).loc main_v1) :=
  fun i => shapeCast S_ a Gen.shapeCasts_S1x1_S_ i

theorem scalarOf_ix0 {c : Dev nD} (a : Buf (Elt F) ((cfg0.win 3).arr.view.loc (c.tc : Thread nD τ))) :
    scalarOf a ValueIdx.ix0 = a (ValueIdx.ix2 0 0) := by
  unfold scalarOf
  refine shapeCast_apply (s := S1x1) (t := S_) a Gen.shapeCasts_S1x1_S_ ValueIdx.ix0 (ValueIdx.ix2 0 0) ?_
  rw [Shape.rowMajor_val_two]
  have h := (S_.rowMajor ValueIdx.ix0).isLt
  have h1 : S_.numel = 1 := by decide
  show (0 : ℕ) * _ + (0 : ℕ) = _
  omega

theorem hmain (𝒱₀ : Variants) (m : (ℓ : Loc nD τ sig) → Buf (Elt F) ℓ) :
    Pipeline.HMainK (Ix := Unit) (Name := ℕ) (U := UR sig nD τ) (Lvl := ℕ) cfgs 0 defs₀ 𝒱₀ m (main (F := F))
      (fun c b => m ((c.tc : Thread nD τ).loc b))
      (fun _ => Pipeline.chain [StableHlo.seq Gen.hostOps1]) :=
  Pipeline.hmain_around cfgs 0 defs₀ 𝒱₀ m main [] [Gen.hostOps1] (by simp only [List.Forall])
    (by simp only [List.Forall]) Gen.main_chain

/-- The windows' arrays one by one: the two windows on the first argument hold its two half shares, the other
    input and the output their buffers at the full share. -/
theorem arrays_eq4 {c : Dev nD} (dat : Dat τ (Elt F) Unit ℕ (UR sig nD τ) ℕ cfg0 c)
    (hq0 : dat.q 0 = fullShare.left) (hq1 : dat.q 1 = fullShare.right) (hq2 : dat.q 2 = fullShare)
    (G : (w : Fin cfg0.W) → Buf (Elt F) ((cfg0.win w).arr.view.loc (c.tc : Thread nD τ))) :
    (dat.arrays G : sProp 𝕄) = iprop(
      (((c.tc : Thread nD τ).loc main_arg0) ↦{fullShare.left} G 0) ∗
      (((c.tc : Thread nD τ).loc main_arg0) ↦{fullShare.right} G 1) ∗
      (((c.tc : Thread nD τ).loc main_arg1) ↦{fullShare} G 2) ∗
      (((c.tc : Thread nD τ).loc main_v0) ↦{fullShare} G 3)) := by
  have s0 : dat.share 0 = fullShare.left := by unfold Dat.share; exact (if_neg Bool.false_ne_true).trans hq0
  have s1 : dat.share 1 = fullShare.right := by unfold Dat.share; exact (if_neg Bool.false_ne_true).trans hq1
  have s2 : dat.share 2 = fullShare := by unfold Dat.share; exact (if_neg Bool.false_ne_true).trans hq2
  have s3 : dat.share 3 = fullShare := by unfold Dat.share; exact if_pos rfl
  unfold Dat.arrays
  rw [Gen.bigSep_W0]
  rw [(Gen.arr_whole0 0).set_eq_univ, (Gen.arr_whole0 2).set_eq_univ, (Gen.arr_whole0 3).set_eq_univ, s0, s1, s2, s3]

/-- The distinct buffers behind the windows' arrays: the two arguments and the result. -/
theorem arrBufs_eq3 (c : Dev nD) (V : (b : Ref sig .tc) → Buf (Elt F) ((c.tc : Thread nD τ).loc b)) :
    (Pipeline.arrBufs spec0 c V : sProp 𝕄) = iprop(
      (((c.tc : Thread nD τ).loc main_arg0) ↦{fullShare} V main_arg0) ∗
      (((c.tc : Thread nD τ).loc main_arg1) ↦{fullShare} V main_arg1) ∗
      (((c.tc : Thread nD τ).loc main_v0) ↦{fullShare} V main_v0)) := by
  unfold Pipeline.arrBufs
  rw [show Finset.univ.image (Pipeline.arrRef spec0) = {main_arg0, main_arg1, main_v0} from by decide]
  rw [bigSep_insert (by decide), bigSep_insert (by decide), bigSep_singleton]
  rfl

/-- The launch hands the pipeline its arrays: the first argument's full share split into the two halves its two
    windows hold. -/
theorem hsplit_of {c : Dev nD} (m : (ℓ : Loc nD τ sig) → Buf (Elt F) ℓ) (dat : Dat τ (Elt F) Unit ℕ (UR sig nD τ) ℕ cfg0 c)
    (hq0 : dat.q 0 = fullShare.left) (hq1 : dat.q 1 = fullShare.right) (hq2 : dat.q 2 = fullShare)
    (hA : ∀ w, dat.A w = m ((c.tc : Thread nD τ).loc (Pipeline.arrRef spec0 w))) :
    (Pipeline.arrBufs spec0 c (fun b => m ((c.tc : Thread nD τ).loc b)) : sProp 𝕄) ⊢ dat.arrays (dat.arrAt · 0) := by
  rw [arrBufs_eq3, arrays_eq4 dat hq0 hq1 hq2]
  show _ ⊢ iprop((_ ↦{fullShare.left} dat.A 0) ∗ (_ ↦{fullShare.right} dat.A 1) ∗ (_ ↦{fullShare} dat.A 2) ∗ (_ ↦{fullShare} dat.A 3))
  rw [hA 0, hA 1, hA 2, hA 3]
  iintro ⟨H0, H1, H3⟩
  ihave H := (pointsTo_share (PosShare.mem_left_op_right fullShare)).1 $$ H0
  icases H with ⟨Hl, Hr⟩
  isplitl [Hl]; · iexact Hl
  isplitl [Hr]; · iexact Hr
  isplitl [H1]; · iexact H1
  iexact H3

/-- The host reshape after the region. -/
abbrev rsOp : HloOp τ sig (Elt F) := StableHlo.reshape main_v0 main_v1 rfl Gen.shapeCasts_S1x1_S_

set_option backward.isDefEq.respectTransparency.types false in
/-- The line after the region: the reshape reads the output window's array (held at the full share) and writes the
    scalar result's buffer, one of the buffers that bypass the region; the arrays come back unchanged. -/
theorem htail_of {c : Dev nD} (m : (ℓ : Loc nD τ sig) → Buf (Elt F) ℓ) (dat : Dat τ (Elt F) Unit ℕ (UR sig nD τ) ℕ cfg0 c)
    (hq0 : dat.q 0 = fullShare.left) (hq1 : dat.q 1 = fullShare.right) (hq2 : dat.q 2 = fullShare) (Q' : PUnit → sProp 𝕄) :
    iprop((iprop(dat.arrays (dat.arrAt · cfg0.N) ∗ (((c.tc : Thread nD τ).loc main_v1) ↦{fullShare} scalarOf (dat.arrAt 3 cfg0.N))) -∗ Q' ⟨⟩)
        ∗ boundary (c.tc : Thread nD τ) ∗ dat.arrays (dat.arrAt · cfg0.N)
        ∗ Pipeline.unscopedRestP (Ix := Unit) (Name := ℕ) (U := UR sig nD τ) (Lvl := ℕ) Pipeline.Prefetch.none spec0 c (fun b => m ((c.tc : Thread nD τ).loc b)))
      ⊢ wp frame (wpE (Pipeline.defs (fun p => (cfgs p).toPCfg (Val := Elt F)) defs₀) (Variants.lift Variants.none) (c.tc : Thread nD τ) none) Set.univ
          (Pipeline.chain [StableHlo.seq Gen.hostOps1]) Q' := by
  classical
  rw [Pipeline.unscopedRestP_none, Gen.unscopedRest0_eq, arrays_eq4 dat hq0 hq1 hq2]
  have hne : (Proc.devRef (τ := τ) .tc main_v1 : DevRef τ sig) ≠ Proc.devRef .tc main_v0 := StableHlo.devRef_ne_of_ne (by decide)
  let W : Valuation τ sig (Elt F) := Function.update (fun b => m (c, b)) (Proc.devRef .tc main_v0) (dat.arrAt 3 cfg0.N)
  have hW0 : W (Proc.devRef .tc main_v0) = dat.arrAt 3 cfg0.N := Function.update_self ..
  have hW1 : W (Proc.devRef .tc main_v1) = m ((c.tc : Thread nD τ).loc main_v1) := Function.update_of_ne hne ..
  have hheld : ∀ V' : Valuation τ sig (Elt F), (StableHlo.held (c.tc : Thread nD τ) (rsOp (F := F)).bufs V' : sProp 𝕄)
      = iprop((((c.tc : Thread nD τ).loc main_v0) ↦{fullShare} V' (Proc.devRef .tc main_v0)) ∗ (((c.tc : Thread nD τ).loc main_v1) ↦{fullShare} V' (Proc.devRef .tc main_v1))) := fun V' => by
    unfold StableHlo.held
    rw [show (rsOp (F := F)).bufs = {Proc.devRef .tc main_v0, Proc.devRef .tc main_v1} from rfl,
      bigSep_insert (by rw [Finset.mem_singleton]; exact hne.symm), bigSep_singleton]
    rfl
  have hr0 : (rsOp (F := F)).result W (Proc.devRef .tc main_v0) = dat.arrAt 3 cfg0.N :=
    (StableHlo.reshape_result_ne (x := main_v0) (y := main_v1) rfl Gen.shapeCasts_S1x1_S_ _ _ W (by decide)).trans hW0
  have hr1 : (rsOp (F := F)).result W (Proc.devRef .tc main_v1) = scalarOf (dat.arrAt 3 cfg0.N) := by
    rw [show (rsOp (F := F)).result W (Proc.devRef .tc main_v1) = _ from StableHlo.reshape_result main_v0 main_v1 rfl Gen.shapeCasts_S1x1_S_ _ _ W]
    show (fun i => shapeCast S_ (W (Proc.devRef .tc main_v0)) Gen.shapeCasts_S1x1_S_ i) = _
    rw [hW0]; rfl
  have hpost : iprop(boundary (c.tc : Thread nD τ) ∗ (StableHlo.held (c.tc : Thread nD τ) (rsOp (F := F)).bufs (StableHlo.after [rsOp] W) : sProp 𝕄))
      ⊢ iprop((((c.tc : Thread nD τ).loc main_v0) ↦{fullShare} dat.arrAt 3 cfg0.N) ∗ (((c.tc : Thread nD τ).loc main_v1) ↦{fullShare} scalarOf (dat.arrAt 3 cfg0.N))) := by
    rw [StableHlo.after_cons, StableHlo.after_nil, hheld, hr0, hr1]
    iintro ⟨-, H⟩; iexact H
  rw [Pipeline.chain_cons, Pipeline.chain_nil]
  iintro ⟨Hk, Hb, ⟨H0, H1, H2, H3⟩, Hz⟩
  iapply (StableHlo.wp_seq (Variants.lift Variants.none) none Set.univ c (rsOp (F := F)).bufs (fun _ => pure ⟨⟩) [rsOp]
    (by intro op hop; rw [List.mem_singleton.mp hop]) (by intro op hop; rw [List.mem_singleton.mp hop]; rfl) W) $$ [Hb H3 Hz]
  · isplitl [Hb]; · iexact Hb
    rw [hheld W, hW0, hW1]
    isplitl [H3]; · iexact H3
    iexact Hz
  iintro Hh
  ihave Hh := hpost $$ Hh
  rw [wp_pure]
  imodintro
  iapply Hk
  icases Hh with ⟨H3, Hz⟩
  isplitr [Hz]
  · isplitl [H0]; · iexact H0
    isplitl [H1]; · iexact H1
    isplitl [H2]; · iexact H2
    iexact H3
  · iexact Hz

theorem run_of (m : (ℓ : Loc nD τ sig) → Buf (Elt F) ℓ) (ρ : Dev nD → PrngReg)
    (dats : (c : Dev nD) → Pipeline.Dat τ (Elt F) Unit ℕ (UR sig nD τ) ℕ cfg0 c)
    (hbody : ∀ c, Pipeline.BodyObligationLoose (dats c) (defs₀ (F := F)) Variants.none () Set.univ)
    (hq0 : ∀ c, (dats c).q 0 = fullShare.left) (hq1 : ∀ c, (dats c).q 1 = fullShare.right) (hq2 : ∀ c, (dats c).q 2 = fullShare)
    (howed : ∀ c t, (dats c).owed t = 0)
    (hA : ∀ c w, (dats c).A w = m ((c.tc : Thread nD τ).loc (Pipeline.arrRef spec0 w)))
    (hin : ∀ c, Pipeline.ΦA spec0 c ⊢ (dats c).Φ 0)
    (hout : ∀ c, (dats c).Φ (Fin.last cfg0.N) ⊢ Pipeline.ΦA spec0 c) :
    θ_run (defs (F := F)) (onTc (τ := τ) (main (F := F))) ⟨m, fun _ => 0, ρ⟩ (fun r => ∀ c : Dev nD,
      r.2.mem ((c.tc : Thread nD τ).loc main_v1) = scalarOf ((dats c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun p => (cfgs p).toPCfg (Val := Elt F)) (fun p => (cfgs p).toPCfg_adm) (fun _ => dats) ()
    Gen.cellOf_inj 0 Gen.winFacts₀0 (Pipeline.OwnSemFacts.none spec0) (Pipeline.PreFacts.none _) emb₁ defs₀ Variants.none m ρ main
    (fun _ => Pipeline.chain [StableHlo.seq Gen.hostOps1]) hbody
    Gen.block_pos0 Gen.arr_whole0 Gen.stage_whole0 howed
    (G := fun _ => iprop(emp)) (u₀ := initOf (Pipeline.cells cfgs Gen.cellOf_inj) (Pipeline.launchToks cfgs Gen.cellOf_inj))
    (hu₀ := by
      iintro Hu; imodintro
      isplitl [Hu]; · iapply (show (ownU _ : sProp 𝕄) ⊢ BI.own (emb₁ (initOf (Pipeline.cells cfgs Gen.cellOf_inj) (Pipeline.launchToks cfgs Gen.cellOf_inj))) from .rfl); iexact Hu
      iapply (show (BI.emp : sProp 𝕄) ⊢ bigSep Finset.univ (fun _ : Dev nD => (BI.emp : sProp 𝕄)) from by rw [BI.bigSep_emp_const])
      iempintro)
    (V := fun c b => m ((c.tc : Thread nD τ).loc b)) (hmain := hmain Variants.none m)
    (hsplit := fun c => hsplit_of m (dats c) (hq0 c) (hq1 c) (hq2 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => m ((c.tc : Thread nD τ).loc b)))
    (Z' := fun c => iprop(((c.tc : Thread nD τ).loc main_v1) ↦{fullShare} scalarOf ((dats c).arrAt 3 cfg0.N)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m (dats c) (hq0 c) (hq1 c) (hq2 c) Q')
    (QY := fun c s => s.mem ((c.tc : Thread nD τ).loc main_v1) = scalarOf ((dats c).arrAt 3 cfg0.N))
    (hY := fun c s' => by
      iintro ⟨-, Hz, HSI⟩
      imodintro
      icombine HSI Hz gives %h
      isplitr
      · ipureintro; exact Buf.eq_of_forall_mem_univ h
      · iexact HSI)
    (hQ := fun s h c => ⟨(h c).2.2,
      ((h c).1 0).trans (((dats c).arrAt_in 0 rfl _).trans (hA c 0)),
      ((h c).1 2).trans (((dats c).arrAt_in 2 rfl _).trans (hA c 2))⟩)

end Cert.Kernel.Hand

end
-- ==== Proof.K.Run.lean ====
/-
  The word-level kernel's frame: every weakly fair execution of @main terminates, nothing faults, and both
  argument arrays end unchanged.  The same body runs, proof data and launch as for the idealized program, read at
  the word-level instance; nothing is claimed of the result's value here.
-/
import proofs.«124996_j45552423141451_2_alg».proof.Proof.K.Body
import proofs.«124996_j45552423141451_2_alg».proof.Proof.K.Launch

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem run_dats : θ_run (defs (F := F)) (onTc (τ := τ) (main (F := F))) ⟨m, fun _ => 0, ρ⟩ (fun r => ∀ c : Dev nD,
      r.2.mem ((c.tc : Thread nD τ).loc main_v1) = scalarOf ((dats m c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (fun c => (body_obligation m c).loose) (fun _ => rfl) (fun _ => rfl) (fun _ => rfl) (fun _ _ => rfl)
    (A_eq m) (hin m) (hout m)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => (h c).2) (run_dats m ρ)

end Cert.Kernel.Hand

end
-- ==== Proof.KI.Shared.lean ====
/-
  What the three runs of the kernel body share: the arrays as the region finds them, each window's block at a
  grid point, the two branch conditions of the body in closed form over the 64 grid points (the first point
  zeroes the two running cells; the last point divides and stores the result), where the output window is idle,
  and the staging and scratch memrefs the body is called with.
-/
import proofs.«124996_j45552423141451_2_alg».proof.Proof.Gen.KernelIdeal.Launch
import proofs.«124996_j45552423141451_2_alg».proof.Proof.Gen.KernelIdeal.Skeleton
import proofs.«124996_j45552423141451_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the windows' blocks -/

/-- The TensorCore buffers as the region is entered: no host operation precedes it, so the launch contents. -/
abbrev V (c : Dev nD) (b : Ref sig .tc) : Buf (Elt F) ((c : Thread nD τ).loc b) := m ((c : Thread nD τ).loc b)

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point — fetched there or not: where it is not
    fetched the block index has not moved — for any proof data over these arrays whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is grid point (0, 0)": the condition under which the body zeroes both running cells. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem hcondFirst : ∀ t : Fin cfg0.N, condFirst (grid0.coords t) ↔ t.val % 64 = 0 :=
  (by decide +kernel : ∀ t : Fin grid0.N, condFirst (grid0.coords t) ↔ t.val % 64 = 0)

/-- "This is grid point (7, 7)": the condition under which the body stores the quotient into the output. -/
abbrev condLast (i : grid0.Coords) : Prop := k0_cond2 i = 1#1
/-- It holds at point 63 only. -/
theorem hcondLast : ∀ t : Fin cfg0.N, condLast (grid0.coords t) ↔ t.val % 64 = 63 :=
  (by decide +kernel : ∀ t : Fin grid0.N, condLast (grid0.coords t) ↔ t.val % 64 = 63)

/-! ## Where the windows are idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
/-- Away from the last point the body stores nothing into the output window, and the pipeline does not write it back. -/
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
/-- At the last point it does. -/
theorem live3 : ∀ t : Fin cfg0.N, condLast (grid0.coords t) → cfg0.idle 3 (grid0.coords t) = false := by decide +kernel

/-! ## The memrefs the body is called with -/

/-- The output window's one staging buffer, as a view through which its contents are stated. -/
abbrev VO3 : View sig .tc .vmem S1x1 .f32 := (Memref.whole cc0_stg3_0 : Memref sig .tc .vmem S1x1 .f32).view
abbrev ms0 (t : Fin cfg0.N) : Memref sig .tc .vmem S128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1 .f32 := win0_3.stage (cfg0.slots t 3)
abbrev hs3 (t : Fin cfg0.N) : (ms3 t).IsWhole := hstage0_3 ((cfg0.slots t 3).cast nbuf0_3)
/-- The two running cells: whole scoped buffers of the kernel's own. -/
abbrev scM0 : Memref sig .tc .vmem S1x1 .f32 := Memref.whole cc0_scratch0
abbrev scM1 : Memref sig .tc .vmem S1x1 .f32 := Memref.whole cc0_scratch1
abbrev VS0 : View sig .tc .vmem S1x1 .f32 := scM0.view
abbrev VS1 : View sig .tc .vmem S1x1 .f32 := scM1.view

/-- The class's region invariant with the two running cells as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Hand

end
-- ==== Proof.KI.RunFirst.lean ====
/-
  The kernel body run at the first grid point: both running cells are zeroed, then the point's block sums are
  added; the output window is left as found.
-/
import proofs.«124996_j45552423141451_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the first point (the zeroing branch taken, the storing branch not): on whole memrefs — the three inputs at
    their contents, the output at contents handed back untouched, the two cells at anything — the body runs to its
    end with the inputs as they were and each cell holding the pieces its stores wrote (the witness the run finds). -/
noncomputable def runFirst (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) :
    Σ' (L3 : List (View.Piece (Elt F) S1x1 .f32)) (LS0 : List (View.Piece (Elt F) S1x1 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨[], ?_, ?_, fun xi3 E K => ?run⟩
  case run =>
    simp only [cc0__kbc_kernel_eq_skeleton]; unfold cc0__kbc_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.RunMid.lean ====
/-
  The kernel body run at a middle grid point: the point's block sums are added to the two running cells; the
  output window is left as found.
-/
import proofs.«124996_j45552423141451_2_alg».proof.Proof.KI.RunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point that is neither first nor last (neither branch taken): the two cells come in at what the point
    before left and leave holding the pieces this point's stores wrote. -/
noncomputable def runMid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) :
    Σ' (L3 : List (View.Piece (Elt F) S1x1 .f32)) (LS0 : List (View.Piece (Elt F) S1x1 .f32)), { LS1 : List (View.Piece (Elt F) S1x1 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨[], ?_, ?_, fun xi3 E K => ?run⟩
  case run =>
    simp only [cc0__kbc_kernel_eq_skeleton]; unfold cc0__kbc_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.RunLast.lean ====
/-
  The kernel body run at the last grid point: the point's block sums are added to the two running cells, and the
  quotient (first cell / 128) / (second cell + ε) is stored into the output window.
-/
import proofs.«124996_j45552423141451_2_alg».proof.Proof.KI.RunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At the last point (the storing branch taken): the output's buffer, at anything, leaves holding the piece the
    store wrote. -/
noncomputable def runLast (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) :
    Σ' (L3 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__kbc_kernel i arg2 harg2 arg3 harg3 arg4 harg4 arg5 harg5 arg6 harg6 arg7 harg7) K } := by
  refine ⟨?_, ?_, ?_, fun E K => ?run⟩
  case run =>
    simp only [cc0__kbc_kernel_eq_skeleton]; unfold cc0__kbc_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.Body.lean ====
/-
  The kernel body at every grid point: what each run leaves in the output window and in the two running cells,
  point by point (a recursion over the 64 points: the first point starts the cells from zero, every later point
  adds its block sums to what the point before left, the last point also stores the quotient), the pipeline's proof
  data over these, and the body obligation.
  The two input windows on the batch array hold the left and the right half of its share; the weight matrix and
  the output are held whole.
-/
import proofs.«124996_j45552423141451_2_alg».proof.Proof.KI.RunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves -/

/-- What the output's staging buffer reads after the first-point run: its pieces written over junk (no piece: a placeholder nothing consults, the window being idle and not written back there). -/
def out3First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) : Vec F S1x1 .f32 :=
  VO3.read (Elt F) (VO3.writes (Elt F) VO3.junk (runFirst c i arg2 harg2 arg3 harg3 arg4 harg4 arg5 harg5 arg6 harg6 arg7 harg7 hc0 hc1 x0 x1 x2).1)
/-- The first-point run's pieces for the first running cell cover it. -/
theorem cov0First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) (y : S1x1.Idx) :
    ∃ pc ∈ (runFirst c i arg2 harg2 arg3 harg3 arg4 harg4 arg5 harg5 arg6 harg6 arg7 harg7 hc0 hc1 x0 x1 x2).2.1, y ∈ pc.1.set :=
  View.cover_of_tiledL (runFirst c i arg2 harg2 arg3 harg3 arg4 harg4 arg5 harg5 arg6 harg6 arg7 harg7 hc0 hc1 x0 x1 x2).2.1 S1x1.size (by sl_kernel_rfl) y
/-- What the first running cell reads after the first-point run. -/
def cell0First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) : Vec F S1x1 .f32 :=
  VS0.read (Elt F) (VS0.writes (Elt F) VS0.junk (runFirst c i arg2 harg2 arg3 harg3 arg4 harg4 arg5 harg5 arg6 harg6 arg7 harg7 hc0 hc1 x0 x1 x2).2.1)
/-- The first-point run's pieces for the second running cell cover it. -/
theorem cov1First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) (y : S1x1.Idx) :
    ∃ pc ∈ (runFirst c i arg2 harg2 arg3 harg3 arg4 harg4 arg5 harg5 arg6 harg6 arg7 harg7 hc0 hc1 x0 x1 x2).2.2.1, y ∈ pc.1.set :=
  View.cover_of_tiledL (runFirst c i arg2 harg2 arg3 harg3 arg4 harg4 arg5 harg5 arg6 harg6 arg7 harg7 hc0 hc1 x0 x1 x2).2.2.1 S1x1.size (by sl_kernel_rfl) y
/-- What the second running cell reads after the first-point run. -/
def cell1First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) : Vec F S1x1 .f32 :=
  VS1.read (Elt F) (VS1.writes (Elt F) VS1.junk (runFirst c i arg2 harg2 arg3 harg3 arg4 harg4 arg5 harg5 arg6 harg6 arg7 harg7 hc0 hc1 x0 x1 x2).2.2.1)

/-- What the output's staging buffer reads after the mid-point run: its pieces written over junk (no piece: a placeholder nothing consults, the window being idle and not written back there). -/
def out3Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) : Vec F S1x1 .f32 :=
  VO3.read (Elt F) (VO3.writes (Elt F) VO3.junk (runMid c i arg2 harg2 arg3 harg3 arg4 harg4 arg5 harg5 arg6 harg6 arg7 harg7 hc0 hc1 x0 x1 x2 xs0 xs1).1)
/-- The mid-point run's pieces for the first running cell cover it. -/
theorem cov0Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) (y : S1x1.Idx) :
    ∃ pc ∈ (runMid c i arg2 harg2 arg3 harg3 arg4 harg4 arg5 harg5 arg6 harg6 arg7 harg7 hc0 hc1 x0 x1 x2 xs0 xs1).2.1, y ∈ pc.1.set :=
  View.cover_of_tiledL (runMid c i arg2 harg2 arg3 harg3 arg4 harg4 arg5 harg5 arg6 harg6 arg7 harg7 hc0 hc1 x0 x1 x2 xs0 xs1).2.1 S1x1.size (by sl_kernel_rfl) y
/-- What the first running cell reads after the mid-point run. -/
def cell0Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) : Vec F S1x1 .f32 :=
  VS0.read (Elt F) (VS0.writes (Elt F) VS0.junk (runMid c i arg2 harg2 arg3 harg3 arg4 harg4 arg5 harg5 arg6 harg6 arg7 harg7 hc0 hc1 x0 x1 x2 xs0 xs1).2.1)
/-- The mid-point run's pieces for the second running cell cover it. -/
theorem cov1Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) (y : S1x1.Idx) :
    ∃ pc ∈ (runMid c i arg2 harg2 arg3 harg3 arg4 harg4 arg5 harg5 arg6 harg6 arg7 harg7 hc0 hc1 x0 x1 x2 xs0 xs1).2.2.1, y ∈ pc.1.set :=
  View.cover_of_tiledL (runMid c i arg2 harg2 arg3 harg3 arg4 harg4 arg5 harg5 arg6 harg6 arg7 harg7 hc0 hc1 x0 x1 x2 xs0 xs1).2.2.1 S1x1.size (by sl_kernel_rfl) y
/-- What the second running cell reads after the mid-point run. -/
def cell1Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) : Vec F S1x1 .f32 :=
  VS1.read (Elt F) (VS1.writes (Elt F) VS1.junk (runMid c i arg2 harg2 arg3 harg3 arg4 harg4 arg5 harg5 arg6 harg6 arg7 harg7 hc0 hc1 x0 x1 x2 xs0 xs1).2.2.1)

/-- What the output's staging buffer reads after the last-point run: its pieces written over junk. -/
def out3Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) : Vec F S1x1 .f32 :=
  VO3.read (Elt F) (VO3.writes (Elt F) VO3.junk (runLast c i arg2 harg2 arg3 harg3 arg4 harg4 arg5 harg5 arg6 harg6 arg7 harg7 hc0 hc1 x0 x1 x2 xs0 xs1).1)
/-- The last-point run's pieces for the first running cell cover it. -/
theorem cov0Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) (y : S1x1.Idx) :
    ∃ pc ∈ (runLast c i arg2 harg2 arg3 harg3 arg4 harg4 arg5 harg5 arg6 harg6 arg7 harg7 hc0 hc1 x0 x1 x2 xs0 xs1).2.1, y ∈ pc.1.set :=
  View.cover_of_tiledL (runLast c i arg2 harg2 arg3 harg3 arg4 harg4 arg5 harg5 arg6 harg6 arg7 harg7 hc0 hc1 x0 x1 x2 xs0 xs1).2.1 S1x1.size (by sl_kernel_rfl) y
/-- What the first running cell reads after the last-point run. -/
def cell0Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) : Vec F S1x1 .f32 :=
  VS0.read (Elt F) (VS0.writes (Elt F) VS0.junk (runLast c i arg2 harg2 arg3 harg3 arg4 harg4 arg5 harg5 arg6 harg6 arg7 harg7 hc0 hc1 x0 x1 x2 xs0 xs1).2.1)
/-- The last-point run's pieces for the second running cell cover it. -/
theorem cov1Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) (y : S1x1.Idx) :
    ∃ pc ∈ (runLast c i arg2 harg2 arg3 harg3 arg4 harg4 arg5 harg5 arg6 harg6 arg7 harg7 hc0 hc1 x0 x1 x2 xs0 xs1).2.2.1, y ∈ pc.1.set :=
  View.cover_of_tiledL (runLast c i arg2 harg2 arg3 harg3 arg4 harg4 arg5 harg5 arg6 harg6 arg7 harg7 hc0 hc1 x0 x1 x2 xs0 xs1).2.2.1 S1x1.size (by sl_kernel_rfl) y
/-- What the second running cell reads after the last-point run. -/
def cell1Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) : Vec F S1x1 .f32 :=
  VS1.read (Elt F) (VS1.writes (Elt F) VS1.junk (runLast c i arg2 harg2 arg3 harg3 arg4 harg4 arg5 harg5 arg6 harg6 arg7 harg7 hc0 hc1 x0 x1 x2 xs0 xs1).2.2.1)
/-- The last-point run's one store covers the output block. -/
theorem cov3Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) (y : S1x1.Idx) :
    ∃ pc ∈ (runLast c i arg2 harg2 arg3 harg3 arg4 harg4 arg5 harg5 arg6 harg6 arg7 harg7 hc0 hc1 x0 x1 x2 xs0 xs1).1, y ∈ pc.1.set :=
  View.cover_of_tiledL (runLast c i arg2 harg2 arg3 harg3 arg4 harg4 arg5 harg5 arg6 harg6 arg7 harg7 hc0 hc1 x0 x1 x2 xs0 xs1).1 S1x1.size (by sl_kernel_rfl) y

/-! ## Point by point -/

/-- After the body at position `n`: the output's staging buffer, the first running cell, the second running cell. -/
def outsAt (c : Dev nD) : (n : ℕ) → n < cfg0.N → Vec F S1x1 .f32 × Vec F S1x1 .f32 × Vec F S1x1 .f32
  | 0, hn => (out3First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩), cell0First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩), cell1First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM0 (Memref.isWhole_whole _) scM1 (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩))
  | n + 1, hn =>
    if h0 : (n + 1) % 64 = 0 then
      False.elim (by have hN : n + 1 < 64 := lt_of_lt_of_eq hn (show cfg0.N = 64 from N_0); omega)
    else
      if h1 : (n + 1) % 64 = 63 then
        (out3Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2, cell0Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2, cell1Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2)
      else
        (out3Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2, cell0Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2, cell1Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM0 (Memref.isWhole_whole _) scM1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (outsAt c n (Nat.lt_of_succ_lt hn)).2.1 (outsAt c n (Nat.lt_of_succ_lt hn)).2.2)

theorem outsAt_first (c : Dev nD) (t : Fin cfg0.N) (h0 : t.val % 64 = 0) (h1 : ¬t.val % 64 = 63) :
    outsAt m c t.val t.isLt = (out3First c (grid0.coords t) (ms0 t) (hs0 t) (ms1 t) (hs1 t) (ms2 t) (hs2 t) (ms3 t) (hs3 t) scM0 (Memref.isWhole_whole _) scM1 (Memref.isWhole_whole _) ((hcondFirst t).mpr h0) (fun h => h1 ((hcondLast t).mp h)) (iblk m c 0 t) (iblk m c 1 t) (iblk m c 2 t), cell0First c (grid0.coords t) (ms0 t) (hs0 t) (ms1 t) (hs1 t) (ms2 t) (hs2 t) (ms3 t) (hs3 t) scM0 (Memref.isWhole_whole _) scM1 (Memref.isWhole_whole _) ((hcondFirst t).mpr h0) (fun h => h1 ((hcondLast t).mp h)) (iblk m c 0 t) (iblk m c 1 t) (iblk m c 2 t), cell1First c (grid0.coords t) (ms0 t) (hs0 t) (ms1 t) (hs1 t) (ms2 t) (hs2 t) (ms3 t) (hs3 t) scM0 (Memref.isWhole_whole _) scM1 (Memref.isWhole_whole _) ((hcondFirst t).mpr h0) (fun h => h1 ((hcondLast t).mp h)) (iblk m c 0 t) (iblk m c 1 t) (iblk m c 2 t)) := by
  obtain ⟨n, hn⟩ := t
  cases n with
  | zero => exact rfl
  | succ n => exact (by exfalso; have hN : n + 1 < 64 := lt_of_lt_of_eq hn (show cfg0.N = 64 from N_0); (try dsimp only at h0); omega)

theorem outsAt_mid (c : Dev nD) (t : Fin cfg0.N) (h0 : ¬t.val % 64 = 0) (h1 : ¬t.val % 64 = 63) :
    outsAt m c t.val t.isLt = (out3Mid c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2, cell0Mid c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2, cell1Mid c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) (fun h => h1 ((hcondLast t).mp h)) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 64 = 0) (h1 : t.val % 64 = 63) :
    outsAt m c t.val t.isLt = (out3Last c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2, cell0Last c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2, cell1Last c (grid0.coords t) (ms0 t) (hs0 t) (ms1 t) (hs1 t) (ms2 t) (hs2 t) (ms3 t) (hs3 t) scM0 (Memref.isWhole_whole _) scM1 (Memref.isWhole_whole _) (fun h => h0 ((hcondFirst t).mp h)) ((hcondLast t).mpr h1) (iblk m c 0 t) (iblk m c 1 t) (iblk m c 2 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (both cells at anything);
    afterwards the two cells at what the point before left, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The pipeline's proof data -/

/-- The arrays as the region finds them; after the body each input's buffer at its block, the output's at
    `outsAt`'s first component; the invariant `PhiS`; nothing owed; the batch array's share halved between its two
    windows. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m c).A w = V m c (Pipeline.arrRef spec0 w) := by
  dsimp only [dats]

theorem PhiS_castSucc (c : Dev nD) (t : Fin cfg0.N) :
    (dats m c).Φ t.castSucc = PhiS m c t.val (Nat.le_of_lt t.isLt) := by
  dsimp only [dats]; simp only [Fin.coe_castSucc]

theorem after0 (c : Dev nD) (t : Fin cfg0.N) : (dats m c).after 0 t = iblk m c 0 t := by dsimp only [dats]
theorem after1 (c : Dev nD) (t : Fin cfg0.N) : (dats m c).after 1 t = iblk m c 1 t := by dsimp only [dats]
theorem after2 (c : Dev nD) (t : Fin cfg0.N) : (dats m c).after 2 t = iblk m c 2 t := by dsimp only [dats]
theorem after3 (c : Dev nD) (t : Fin cfg0.N) : (dats m c).after 3 t = (outsAt m c t.val t.isLt).1 := by dsimp only [dats]

theorem before0 (c : Dev nD) (t : Fin cfg0.N) (d) : (dats m c).before 0 t d = iblk m c 0 t :=
  before0_of m (dats m c) (A_eq m c 0) (after0 m c) t d
theorem before1 (c : Dev nD) (t : Fin cfg0.N) (d) : (dats m c).before 1 t d = iblk m c 1 t :=
  before1_of m (dats m c) (A_eq m c 1) (after1 m c) t d
theorem before2 (c : Dev nD) (t : Fin cfg0.N) (d) : (dats m c).before 2 t d = iblk m c 2 t :=
  before2_of m (dats m c) (A_eq m c 2) (after2 m c) t d

/-! ## The body obligation -/

def bodyPre (c : Dev nD) (t : Fin cfg0.N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ d, owns (c : Thread nD τ) (ms2 t) fullShare ((dats m c).before 2 t d))
    ∗ (∃ d, owns (c : Thread nD τ) (ms3 t) fullShare ((dats m c).before 3 t d)))

def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t)

theorem leaves0 (c : Dev nD) (t : Fin cfg0.N) : (dats m c).leavesExact 0 t = owns (c : Thread nD τ) (ms0 t) fullShare (iblk m c 0 t) := by
  unfold Dat.leavesExact; rw [live0 t, after0]
theorem leaves1 (c : Dev nD) (t : Fin cfg0.N) : (dats m c).leavesExact 1 t = owns (c : Thread nD τ) (ms1 t) fullShare (iblk m c 1 t) := by
  unfold Dat.leavesExact; rw [live1 t, after1]
theorem leaves2 (c : Dev nD) (t : Fin cfg0.N) : (dats m c).leavesExact 2 t = owns (c : Thread nD τ) (ms2 t) fullShare (iblk m c 2 t) := by
  unfold Dat.leavesExact; rw [live2 t, after2]

set_option maxHeartbeats 4800000 in
/-- The body at any point. The three inputs' buffers hold their blocks; the closed forms say which run applies; the
    invariant hands the run the two cells (at anything at the first point, at what the point before left afterwards)
    and takes them back at this point's contents; away from the last point the output's buffer goes back untouched,
    at the last point it holds the stored quotient. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m c).owesAt () t.succ = (dats m c).owesAt () t.castSucc from rfl]
  rw [show (dats m c).Φ t.succ = PhiS m c (t.val + 1) t.isLt from rfl, PhiS_succ]
  rw [leaves0, leaves1, leaves2]
  have hN : t.val < 64 := lt_of_lt_of_eq t.isLt (show cfg0.N = 64 from N_0)
  by_cases h0 : t.val % 64 = 0
  · have h1 : ¬t.val % 64 = 63 := by omega
    have hz : t.val = 0 := by omega
    rw [Dat.leavesExact_idle (dats m c) 3 t (idle3 t (fun h => h1 ((hcondLast t).mp h))) (noFlush3 t (fun h => h1 ((hcondLast t).mp h)))]
    rw [outsAt_first m c t h0 h1]
    unfold cell0First cell1First; (try dsimp only)
    rw [PhiS_castSucc m c t, PhiS_zero m c _ _ hz, PhiA_eq]
    iintro ⟨⟨⟨HS0, HS1⟩, Hg⟩, Ho, ⟨%d0, H0⟩, ⟨%d1, H1⟩, ⟨%d2, H2⟩, ⟨%d3, H3⟩⟩
    iapply ((runFirst c (grid0.coords t) _ _ _ _ _ _ _ _ _ _ _ _ ((hcondFirst t).mpr h0) (fun h => h1 ((hcondLast t).mp h)) (iblk m c 0 t) (iblk m c 1 t) (iblk m c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (cov0First c _ _ _ _ _ _ _ _ _ _ _ _ _ _ _ _ _ _)
        · unfold owns; iexists _; isplitr
          swap; · iexact HS1
          ipureintro; exact View.read_writes_of_cover _ _ _ _ _ (cov1First c _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 64 = 63
    · rw [show (dats m c).leavesExact 3 t = owns (c : Thread nD τ) (ms3 t) fullShare ((dats m c).after 3 t) from by
        unfold Dat.leavesExact; rw [live3 t ((hcondLast t).mpr h1)], after3]
      rw [outsAt_last m c t h0 h1]
      unfold out3Last cell0Last cell1Last; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runLast c (grid0.coords t) _ _ _ _ _ _ _ _ _ _ _ _ (fun h => h0 ((hcondFirst t).mp h)) ((hcondLast t).mpr h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cov0Last c _ _ _ _ _ _ _ _ _ _ _ _ _ _ _ _ _ _ _ _)
          · unfold owns; iexists _; isplitr
            swap; · iexact HS1
            ipureintro; exact View.read_writes_of_cover _ _ _ _ _ (cov1Last c _ _ _ _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cov3Last c _ _ _ _ _ _ _ _ _ _ _ _ _ _ _ _ _ _ _ _)
    · rw [Dat.leavesExact_idle (dats m c) 3 t (idle3 t (fun h => h1 ((hcondLast t).mp h))) (noFlush3 t (fun h => h1 ((hcondLast t).mp h)))]
      rw [outsAt_mid m c t h0 h1]
      unfold cell0Mid cell1Mid; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((runMid c (grid0.coords t) _ _ _ _ _ _ _ _ _ _ _ _ (fun h => h0 ((hcondFirst t).mp h)) (fun h => h1 ((hcondLast t).mp h)) (iblk m c 0 t) (iblk m c 1 t) (iblk m c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (cov0Mid c _ _ _ _ _ _ _ _ _ _ _ _ _ _ _ _ _ _ _ _)
          · unfold owns; iexists _; isplitr
            swap; · iexact HS1
            ipureintro; exact View.read_writes_of_cover _ _ _ _ _ (cov1Mid c _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- After any point but the first the invariant gives the class's back: the cells' named contents are forgotten. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m c).Φ (Fin.last cfg0.N) ⊢ Pipeline.ΦA spec0 c :=
  Phi_out m c _ (by rw [Fin.val_last]; have : cfg0.N = 64 := N_0; omega)

end Cert.KernelIdeal.Hand

end
-- ==== Proof.Spec.lean ====
/-
  What the kernel computes, as pure terms over the argument arrays.

  The grid is 8 × 8, walked row-major: point n has row-block n / 8 and column-block n % 8.  At point n the body
  reads three 128 × 128 blocks — columns 128·(n/8)… of the batch array (the "i" side), columns 128·(n%8)… of
  the same array (the "j" side), and block (n/8, n%8) of the weight matrix — and adds, into two running 1 × 1
  cells, the block's weighted sum of squared differences and the block's count of positive weights.  Both cells
  start at zero at point 0.  After the last point the result is (first cell / 128) / (second cell + ε).
-/
import proofs.«124996_j45552423141451_2_alg».proof.Proof.Gen.KernelIdeal.Skeleton
import Idealize.ShloMosaic.Lib.ValueIdx

noncomputable section

namespace Cert.KernelIdeal.Spec

open Idealize.ShloMosaic Cert.KernelIdeal Cert.KernelIdeal.Gen

variable {F : FTy → Type} [FloatOps F]

/-- Row-block of grid point `n`. -/
def rowOf (n : ℕ) : Fin 8 := ⟨n / 8 % 8, Nat.mod_lt _ (by norm_num)⟩
/-- Column-block of grid point `n`. -/
def colOf (n : ℕ) : Fin 8 := ⟨n % 8, Nat.mod_lt _ (by norm_num)⟩

/-- Columns `128 k … 128 k + 127` of the batch array, all 128 rows. -/
def colBlock (P : Vec F S128x1024 .f32) (k : Fin 8) : Vec F S128x128 .f32 := fun y =>
  P (ValueIdx.ix2 (n0 := 128) (n1 := 1024) ⟨(y 0).val, (y 0).isLt⟩
      ⟨k.val * 128 + (y 1).val, by have h1 : (y 1).val < 128 := (y 1).isLt; have hk := k.isLt; omega⟩)

/-- Block `(i, j)` of the weight matrix. -/
def matBlock (C : Vec F S1024x1024 .f32) (i j : Fin 8) : Vec F S128x128 .f32 := fun y =>
  C (ValueIdx.ix2 (n0 := 1024) (n1 := 1024)
      ⟨i.val * 128 + (y 0).val, by have h0 : (y 0).val < 128 := (y 0).isLt; have hi := i.isLt; omega⟩
      ⟨j.val * 128 + (y 1).val, by have h1 : (y 1).val < 128 := (y 1).isLt; have hj := j.isLt; omega⟩)

/-- The two running cells after the first `n` grid points: the weighted sum and the positive count. -/
def acc (P : Vec F S128x1024 .f32) (C : Vec F S1024x1024 .f32) : ℕ → FVec F S1x1 .f32 × FVec F S1x1 .f32
  | 0 => (k0_pay3, k0_pay4)
  | n + 1 =>
    (k0_pay6 (colBlock P (rowOf n)) (colBlock P (colOf n)) (matBlock C (rowOf n) (colOf n)) (acc P C n).1,
     k0_pay1 (k0_pay5 (matBlock C (rowOf n) (colOf n))) (acc P C n).2)

/-- What the last grid point stores into the 1 × 1 output. -/
def out (P : Vec F S128x1024 .f32) (C : Vec F S1024x1024 .f32) : FVec F S1x1 .f32 :=
  k0_pay2 (acc P C 64).1 (acc P C 64).2

end Cert.KernelIdeal.Spec

end
-- ==== Proof.KI.Value.lean ====
/-
  What the kernel's result array holds after the run, as a pure term of the argument arrays.

  Each run's found pieces are read back as the body's arithmetic: a running cell after a point is the payload of
  its one covering store, over the blocks the point loaded and what the cell held before (zero at the first
  point).  A window's block at grid point t is columns 128·(t/8 % 8)… (first window) or 128·(t % 8)… (second window)
  of the batch array, or block (t/8 % 8, t % 8) of the weight matrix.  By induction on the point the two cells
  are the specification's fold, and the last point's store is the specification's result.  The one write-back,
  at the last point, covers the 1 × 1 result array.
-/
import proofs.«124996_j45552423141451_2_alg».proof.Proof.KI.Body
import proofs.«124996_j45552423141451_2_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl

/-! ## The runs' pieces, read back -/

theorem cell0First_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) :
    cell0First c i arg2 harg2 arg3 harg3 arg4 harg4 arg5 harg5 arg6 harg6 arg7 harg7 hc0 hc1 x0 x1 x2 = k0_pay6 x0 x1 x2 k0_pay3 := by
  unfold cell0First
  rw [View.read_writes_eq_canon _ _ _ (cov0First c i arg2 harg2 arg3 harg3 arg4 harg4 arg5 harg5 arg6 harg6 arg7 harg7 hc0 hc1 x0 x1 x2)]
  unfold runFirst
  dsimp only
  sl_unfold_words
  first
    | rw [View.canon_cons_unit_zero (S := S1x1) hz2]
    | rw [View.canon_unit_zero hz2]
  simp only [View.readCov_unit_zero (S := S1x1) _ hz2, View.readAt_eq_ld, harg2.read_unread, harg3.read_unread, harg4.read_unread,
    harg6.read_unread, harg7.read_unread, View.ld_unit_zero (S := S128x128) hz2, View.ld_unit_zero (S := S1x1) hz2]

theorem cell1First_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 x1 x2 : Vec F S128x128 .f32) :
    cell1First c i arg2 harg2 arg3 harg3 arg4 harg4 arg5 harg5 arg6 harg6 arg7 harg7 hc0 hc1 x0 x1 x2 = k0_pay1 (k0_pay5 x2) k0_pay4 := by
  unfold cell1First
  rw [View.read_writes_eq_canon _ _ _ (cov1First c i arg2 harg2 arg3 harg3 arg4 harg4 arg5 harg5 arg6 harg6 arg7 harg7 hc0 hc1 x0 x1 x2)]
  unfold runFirst
  dsimp only
  sl_unfold_words
  first
    | rw [View.canon_cons_unit_zero (S := S1x1) hz2]
    | rw [View.canon_unit_zero hz2]
  simp only [View.readCov_unit_zero (S := S1x1) _ hz2, View.readAt_eq_ld, harg2.read_unread, harg3.read_unread, harg4.read_unread,
    harg6.read_unread, harg7.read_unread, View.ld_unit_zero (S := S128x128) hz2, View.ld_unit_zero (S := S1x1) hz2]

theorem cell0Mid_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) :
    cell0Mid c i arg2 harg2 arg3 harg3 arg4 harg4 arg5 harg5 arg6 harg6 arg7 harg7 hc0 hc1 x0 x1 x2 xs0 xs1 = k0_pay6 x0 x1 x2 xs0 := by
  unfold cell0Mid
  rw [View.read_writes_eq_canon _ _ _ (cov0Mid c i arg2 harg2 arg3 harg3 arg4 harg4 arg5 harg5 arg6 harg6 arg7 harg7 hc0 hc1 x0 x1 x2 xs0 xs1)]
  unfold runMid
  dsimp only
  sl_unfold_words
  first
    | rw [View.canon_cons_unit_zero (S := S1x1) hz2]
    | rw [View.canon_unit_zero hz2]
  simp only [View.readCov_unit_zero (S := S1x1) _ hz2, View.readAt_eq_ld, harg2.read_unread, harg3.read_unread, harg4.read_unread,
    harg6.read_unread, harg7.read_unread, View.ld_unit_zero (S := S128x128) hz2, View.ld_unit_zero (S := S1x1) hz2]

theorem cell1Mid_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 x1 x2 : Vec F S128x128 .f32) (xs0 xs1 : Vec F S1x1 .f32) :
    cell1Mid c i arg2 harg2 arg3 harg3 arg4 harg4 arg5 harg5 arg6 harg6 arg7 harg7 hc0 hc1 x0 x1 x2 xs0 xs1 = k0_pay1 (k0_pay5 x2) xs1 := by
  unfold cell1Mid
  rw [View.read_writes_eq_canon _ _ _ (cov1Mid c i arg2 harg2 arg3 harg3 arg4 harg4 arg5 harg5 arg6 harg6 arg7 harg7 hc0 hc1 x0 x1 x2 xs0 xs1)]
  unfold runMid
  dsimp only
  sl_unfold_words
  first
    | rw [View.canon_cons_unit_zero (S := S1x1) hz2]
    | rw [View.canon_unit_zero hz2]
  simp only [View.readCov_unit_zero (S := S1x1) _ hz2, View.readAt_eq_ld, harg2.read_unread, harg3.read_unread, harg4.read_unread,
    harg6.read_unread, harg7.read_unread, View.ld_unit_zero (S := S128x128) hz2, View.ld_unit_zero (S := S1x1) hz2]

theorem cell0Last_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) :
    cell0Last c i arg2 harg2 arg3 harg3 arg4 harg4 arg5 harg5 arg6 harg6 arg7 harg7 hc0 hc1 x0 x1 x2 xs0 xs1 = k0_pay6 x0 x1 x2 xs0 := by
  unfold cell0Last
  rw [View.read_writes_eq_canon _ _ _ (cov0Last c i arg2 harg2 arg3 harg3 arg4 harg4 arg5 harg5 arg6 harg6 arg7 harg7 hc0 hc1 x0 x1 x2 xs0 xs1)]
  unfold runLast
  dsimp only
  sl_unfold_words
  first
    | rw [View.canon_cons_unit_zero (S := S1x1) hz2]
    | rw [View.canon_unit_zero hz2]
  simp only [View.readCov_unit_zero (S := S1x1) _ hz2, View.readAt_eq_ld, harg2.read_unread, harg3.read_unread, harg4.read_unread,
    harg6.read_unread, harg7.read_unread, View.ld_unit_zero (S := S128x128) hz2, View.ld_unit_zero (S := S1x1) hz2]

theorem cell1Last_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) :
    cell1Last c i arg2 harg2 arg3 harg3 arg4 harg4 arg5 harg5 arg6 harg6 arg7 harg7 hc0 hc1 x0 x1 x2 xs0 xs1 = k0_pay1 (k0_pay5 x2) xs1 := by
  unfold cell1Last
  rw [View.read_writes_eq_canon _ _ _ (cov1Last c i arg2 harg2 arg3 harg3 arg4 harg4 arg5 harg5 arg6 harg6 arg7 harg7 hc0 hc1 x0 x1 x2 xs0 xs1)]
  unfold runLast
  dsimp only
  sl_unfold_words
  first
    | rw [View.canon_cons_unit_zero (S := S1x1) hz2]
    | rw [View.canon_unit_zero hz2]
  simp only [View.readCov_unit_zero (S := S1x1) _ hz2, View.readAt_eq_ld, harg2.read_unread, harg3.read_unread, harg4.read_unread,
    harg6.read_unread, harg7.read_unread, View.ld_unit_zero (S := S128x128) hz2, View.ld_unit_zero (S := S1x1) hz2]

theorem out3Last_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 x1 x2 : Vec F S128x128 .f32) (xs0 xs1 : Vec F S1x1 .f32) :
    out3Last c i arg2 harg2 arg3 harg3 arg4 harg4 arg5 harg5 arg6 harg6 arg7 harg7 hc0 hc1 x0 x1 x2 xs0 xs1 = k0_pay2 (k0_pay6 x0 x1 x2 xs0) (k0_pay1 (k0_pay5 x2) xs1) := by
  unfold out3Last
  rw [View.read_writes_eq_canon _ _ _ (cov3Last c i arg2 harg2 arg3 harg3 arg4 harg4 arg5 harg5 arg6 harg6 arg7 harg7 hc0 hc1 x0 x1 x2 xs0 xs1)]
  unfold runLast
  dsimp only
  sl_unfold_words
  first
    | rw [View.canon_cons_unit_zero (S := S1x1) hz2]
    | rw [View.canon_unit_zero hz2]
  simp only [View.readCov_unit_zero (S := S1x1) _ hz2, View.readAt_eq_ld, harg2.read_unread, harg3.read_unread, harg4.read_unread,
    harg6.read_unread, harg7.read_unread, View.ld_unit_zero (S := S128x128) hz2, View.ld_unit_zero (S := S1x1) hz2]

/-! ## The windows' blocks, as blocks of the argument arrays -/

variable (m : (ℓ : Loc nD τ sig) → Buf (Elt F) ℓ) (ρ : Dev nD → PrngReg)

/-- The block index of each window at grid point `t`: row-block `t / 8 % 8`, column-block `t % 8`. -/
theorem idx0 : ∀ t : Fin cfg0.N, win0_0.index t 0 = 0 ∧ win0_0.index t 1 = t.val / 8 % 8 :=
  (by decide +kernel : ∀ t : Fin grid0.N, win0_0.index t 0 = 0 ∧ win0_0.index t 1 = t.val / 8 % 8)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = t.val / 8 % 8 ∧ win0_2.index t 1 = t.val % 8 :=
  (by decide +kernel : ∀ t : Fin grid0.N, win0_2.index t 0 = t.val / 8 % 8 ∧ win0_2.index t 1 = t.val % 8)
theorem idx3 : ∀ t : Fin cfg0.N, win0_3.index t 0 = 0 ∧ win0_3.index t 1 = 0 :=
  (by decide +kernel : ∀ t : Fin grid0.N, win0_3.index t 0 = 0 ∧ win0_3.index t 1 = 0)

/-- The batch array and the weight matrix as the region finds them. -/
abbrev argP (c : Dev nD) : Vec F S128x1024 .f32 := V m c main_arg0
abbrev argC (c : Dev nD) : Vec F S1024x1024 .f32 := V m c main_arg1

theorem iblk0_eq (c : Dev nD) (t : Fin cfg0.N) :
    (iblk m c 0 t : Vec F S128x128 .f32) = Spec.colBlock (argP m c) (Spec.rowOf t.val) := by
  obtain ⟨h0, h1⟩ := idx0 t
  funext j
  unfold iblk Spec.colBlock
  rw [View.read_apply]
  show V m c main_arg0 _ = V m c main_arg0 _
  congr 1
  funext a
  apply Fin.ext
  match a with
  | ⟨0, _⟩ => show win0_0.index t 0 * 128 + 1 * (j 0).val = (j 0).val; rw [h0]; omega
  | ⟨1, _⟩ => show win0_0.index t 1 * 128 + 1 * (j 1).val = t.val / 8 % 8 * 128 + (j 1).val; rw [h1]; omega

theorem iblk1_eq (c : Dev nD) (t : Fin cfg0.N) :
    (iblk m c 1 t : Vec F S128x128 .f32) = Spec.colBlock (argP m c) (Spec.colOf t.val) := by
  obtain ⟨h0, h1⟩ := idx1 t
  funext j
  unfold iblk Spec.colBlock
  rw [View.read_apply]
  show V m c main_arg0 _ = V m c main_arg0 _
  congr 1
  funext a
  apply Fin.ext
  match a with
  | ⟨0, _⟩ => show win0_1.index t 0 * 128 + 1 * (j 0).val = (j 0).val; rw [h0]; omega
  | ⟨1, _⟩ => show win0_1.index t 1 * 128 + 1 * (j 1).val = t.val % 8 * 128 + (j 1).val; rw [h1]; omega

theorem iblk2_eq (c : Dev nD) (t : Fin cfg0.N) :
    (iblk m c 2 t : Vec F S128x128 .f32) = Spec.matBlock (argC m c) (Spec.rowOf t.val) (Spec.colOf t.val) := by
  obtain ⟨h0, h1⟩ := idx2 t
  funext j
  unfold iblk Spec.matBlock
  rw [View.read_apply]
  show V m c main_arg1 _ = V m c main_arg1 _
  congr 1
  funext a
  apply Fin.ext
  match a with
  | ⟨0, _⟩ => show win0_2.index t 0 * 128 + 1 * (j 0).val = t.val / 8 % 8 * 128 + (j 0).val; rw [h0]; omega
  | ⟨1, _⟩ => show win0_2.index t 1 * 128 + 1 * (j 1).val = t.val % 8 * 128 + (j 1).val; rw [h1]; omega

/-! ## The two running cells are the specification's fold -/

theorem cells_eq (c : Dev nD) : ∀ (n : ℕ) (h : n < cfg0.N),
    (outsAt m c n h).2.1 = (Spec.acc (argP m c) (argC m c) (n + 1)).1
      ∧ (outsAt m c n h).2.2 = (Spec.acc (argP m c) (argC m c) (n + 1)).2
  | 0, h => by
    rw [outsAt_first m c ⟨0, h⟩ rfl (by show ¬(0 % 64 = 63); omega)]
    dsimp only
    rw [cell0First_eq, cell1First_eq, iblk0_eq, iblk1_eq, iblk2_eq]
    exact ⟨rfl, rfl⟩
  | n + 1, h => by
    have hN : cfg0.N = 64 := N_0
    have h0 : ¬(⟨n + 1, h⟩ : Fin cfg0.N).val % 64 = 0 := by dsimp only; omega
    obtain ⟨ih0, ih1⟩ := cells_eq c n (Nat.lt_of_succ_lt h)
    by_cases h1 : (⟨n + 1, h⟩ : Fin cfg0.N).val % 64 = 63
    · rw [outsAt_last m c ⟨n + 1, h⟩ h0 h1]
      dsimp only
      rw [cell0Last_eq, cell1Last_eq, iblk0_eq, iblk1_eq, iblk2_eq]
      show k0_pay6 _ _ _ (outsAt m c n _).2.1 = _ ∧ k0_pay1 _ (outsAt m c n _).2.2 = _
      rw [ih0, ih1]
      exact ⟨rfl, rfl⟩
    · rw [outsAt_mid m c ⟨n + 1, h⟩ h0 h1]
      dsimp only
      rw [cell0Mid_eq, cell1Mid_eq, iblk0_eq, iblk1_eq, iblk2_eq]
      show k0_pay6 _ _ _ (outsAt m c n _).2.1 = _ ∧ k0_pay1 _ (outsAt m c n _).2.2 = _
      rw [ih0, ih1]
      exact ⟨rfl, rfl⟩

/-- The last point's store is the specification's result. -/
theorem out_eq (c : Dev nD) : ∀ (n : ℕ) (h : n + 1 < cfg0.N), (n + 1) % 64 = 63 →
    (outsAt m c (n + 1) h).1 = Spec.out (argP m c) (argC m c) := by
  intro n h h63
  have hN : cfg0.N = 64 := N_0
  have hn : n = 62 := by omega
  have h0 : ¬(⟨n + 1, h⟩ : Fin cfg0.N).val % 64 = 0 := by dsimp only; omega
  obtain ⟨ih0, ih1⟩ := cells_eq m c n (Nat.lt_of_succ_lt h)
  rw [outsAt_last m c ⟨n + 1, h⟩ h0 h63]
  dsimp only
  rw [out3Last_eq, iblk0_eq, iblk1_eq, iblk2_eq]
  show k0_pay2 (k0_pay6 _ _ _ (outsAt m c n _).2.1) (k0_pay1 _ (outsAt m c n _).2.2) = _
  rw [ih0, ih1]
  subst hn
  rfl

/-! ## The result array -/

/-- The result array's final contents: the specification's result. -/
abbrev result (c : Dev nD) : Buf (Elt F) ((c : Thread nD τ).loc main_v0) := Spec.out (argP m c) (argC m c)

/-- The one write-back, at the last point, writes it: block (0, 0) of the 1 × 1 array is the array. -/
theorem flushed_eq (c : Dev nD) (t : Fin cfg0.N) (hf : (cfg0.win 3).flush t = true) :
    (dats m c).flushed 3 t = ((cfg0.win 3).blk t).view.read (Elt F) (result m c) := by
  have hN : cfg0.N = 64 := N_0
  have h63 : t.val % 64 = 63 := (flush0_3 t).mp hf
  obtain ⟨n, hn⟩ := t
  have hn1 : n = 62 + 1 := by dsimp only at h63; omega
  subst hn1
  show (cfg0.win 3).cut (grid0.coords ⟨62 + 1, hn⟩) ((dats m c).after 3 ⟨62 + 1, hn⟩) = _
  rw [after3, out_eq m c 62 hn h63]
  have hz' : (fun a => win0_3.index ⟨62 + 1, hn⟩ a * main_v0.ty.shape.size a) = fun _ => 0 := funext fun a => by
    match a with
    | ⟨0, _⟩ => show win0_3.index ⟨62 + 1, hn⟩ 0 * 1 = 0; rw [(idx3 ⟨62 + 1, hn⟩).1]
    | ⟨1, _⟩ => show win0_3.index ⟨62 + 1, hn⟩ 1 * 1 = 0; rw [(idx3 ⟨62 + 1, hn⟩).2]
  exact (Memref.read_access_unit_zero (Elt F) main_v0 hz' (fun a => by rw [congrFun hz' a]; simp) (result m c)).symm

/-- The last grid point. -/
abbrev tLast : Fin cfg0.N := ⟨63, by rw [show cfg0.N = 64 from N_0]; decide⟩

/-- So the result array ends holding the specification's result. -/
theorem final3 (c : Dev nD) : (dats m c).arrAt 3 cfg0.N = result m c :=
  (dats m c).arrAt_eq_of_cover 3 (result m c) (flushed_eq m c) fun i =>
    ⟨tLast, (flush0_3 tLast).mpr rfl, by
      show i ∈ ((View.whole main_v0).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

end Cert.KernelIdeal.Hand

end
-- ==== Proof.KI.Launch.lean ====
import proofs.«124996_j45552423141451_2_alg».proof.Proof.Gen.KernelIdeal.Launch
import proofs.«124996_j45552423141451_2_alg».proof.Proof.Gen.KernelIdeal.Skeleton
import proofs.«124996_j45552423141451_2_alg».proof.Proof.Gen.KernelIdeal.Points
import Idealize.ShloMosaic.Lib.Pipeline.FrameSuffix
import Idealize.ShloMosaic.Lib.Pipeline.Value
import Idealize.ShloMosaic.Lib.ValueIdx

/-! # The launch theorem of the kernel's one pipeline

The program's entry function is one pipelined region followed by one host reshape of the 1×1 result to a scalar. Two of
the region's four windows read the same argument array, so the launch splits that array's full share into its two
halves, one per window; the third input and the output are held at the full share. From a body obligation of any proof
data with those shares, this module derives the run of the whole entry function: the scalar result is the output
window's array after the last write-back, read at the rank-0 shape, and the two arguments are unchanged. Everything is
stated for any float instance. -/

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The scalar the host reshape leaves: the 1×1 result read in row-major order at the rank-0 shape. -/
def scalarOf {c : Dev nD} (a : Buf (Elt F) ((cfg0.win 3).arr.view.loc (c.tc : Thread nD τ))) :
    Buf (Elt F) ((c.tc : Thread nD τ).loc main_v1) :=
  fun i => shapeCast S_ a Gen.shapeCasts_S1x1_S_ i

theorem scalarOf_ix0 {c : Dev nD} (a : Buf (Elt F) ((cfg0.win 3).arr.view.loc (c.tc : Thread nD τ))) :
    scalarOf a ValueIdx.ix0 = a (ValueIdx.ix2 0 0) := by
  unfold scalarOf
  refine shapeCast_apply (s := S1x1) (t := S_) a Gen.shapeCasts_S1x1_S_ ValueIdx.ix0 (ValueIdx.ix2 0 0) ?_
  rw [Shape.rowMajor_val_two]
  have h := (S_.rowMajor ValueIdx.ix0).isLt
  have h1 : S_.numel = 1 := by decide
  show (0 : ℕ) * _ + (0 : ℕ) = _
  omega

theorem hmain (𝒱₀ : Variants) (m : (ℓ : Loc nD τ sig) → Buf (Elt F) ℓ) :
    Pipeline.HMainK (Ix := Unit) (Name := ℕ) (U := UR sig nD τ) (Lvl := ℕ) cfgs 0 defs₀ 𝒱₀ m (main (F := F))
      (fun c b => m ((c.tc : Thread nD τ).loc b))
      (fun _ => Pipeline.chain [StableHlo.seq Gen.hostOps1]) :=
  Pipeline.hmain_around cfgs 0 defs₀ 𝒱₀ m main [] [Gen.hostOps1] (by simp only [List.Forall])
    (by simp only [List.Forall]) Gen.main_chain

/-- The windows' arrays one by one: the two windows on the first argument hold its two half shares, the other
    input and the output their buffers at the full share. -/
theorem arrays_eq4 {c : Dev nD} (dat : Dat τ (Elt F) Unit ℕ (UR sig nD τ) ℕ cfg0 c)
    (hq0 : dat.q 0 = fullShare.left) (hq1 : dat.q 1 = fullShare.right) (hq2 : dat.q 2 = fullShare)
    (G : (w : Fin cfg0.W) → Buf (Elt F) ((cfg0.win w).arr.view.loc (c.tc : Thread nD τ))) :
    (dat.arrays G : sProp 𝕄) = iprop(
      (((c.tc : Thread nD τ).loc main_arg0) ↦{fullShare.left} G 0) ∗
      (((c.tc : Thread nD τ).loc main_arg0) ↦{fullShare.right} G 1) ∗
      (((c.tc : Thread nD τ).loc main_arg1) ↦{fullShare} G 2) ∗
      (((c.tc : Thread nD τ).loc main_v0) ↦{fullShare} G 3)) := by
  have s0 : dat.share 0 = fullShare.left := by unfold Dat.share; exact (if_neg Bool.false_ne_true).trans hq0
  have s1 : dat.share 1 = fullShare.right := by unfold Dat.share; exact (if_neg Bool.false_ne_true).trans hq1
  have s2 : dat.share 2 = fullShare := by unfold Dat.share; exact (if_neg Bool.false_ne_true).trans hq2
  have s3 : dat.share 3 = fullShare := by unfold Dat.share; exact if_pos rfl
  unfold Dat.arrays
  rw [Gen.bigSep_W0]
  rw [(Gen.arr_whole0 0).set_eq_univ, (Gen.arr_whole0 2).set_eq_univ, (Gen.arr_whole0 3).set_eq_univ, s0, s1, s2, s3]

/-- The distinct buffers behind the windows' arrays: the two arguments and the result. -/
theorem arrBufs_eq3 (c : Dev nD) (V : (b : Ref sig .tc) → Buf (Elt F) ((c.tc : Thread nD τ).loc b)) :
    (Pipeline.arrBufs spec0 c V : sProp 𝕄) = iprop(
      (((c.tc : Thread nD τ).loc main_arg0) ↦{fullShare} V main_arg0) ∗
      (((c.tc : Thread nD τ).loc main_arg1) ↦{fullShare} V main_arg1) ∗
      (((c.tc : Thread nD τ).loc main_v0) ↦{fullShare} V main_v0)) := by
  unfold Pipeline.arrBufs
  rw [show Finset.univ.image (Pipeline.arrRef spec0) = {main_arg0, main_arg1, main_v0} from by decide]
  rw [bigSep_insert (by decide), bigSep_insert (by decide), bigSep_singleton]
  rfl

/-- The launch hands the pipeline its arrays: the first argument's full share split into the two halves its two
    windows hold. -/
theorem hsplit_of {c : Dev nD} (m : (ℓ : Loc nD τ sig) → Buf (Elt F) ℓ) (dat : Dat τ (Elt F) Unit ℕ (UR sig nD τ) ℕ cfg0 c)
    (hq0 : dat.q 0 = fullShare.left) (hq1 : dat.q 1 = fullShare.right) (hq2 : dat.q 2 = fullShare)
    (hA : ∀ w, dat.A w = m ((c.tc : Thread nD τ).loc (Pipeline.arrRef spec0 w))) :
    (Pipeline.arrBufs spec0 c (fun b => m ((c.tc : Thread nD τ).loc b)) : sProp 𝕄) ⊢ dat.arrays (dat.arrAt · 0) := by
  rw [arrBufs_eq3, arrays_eq4 dat hq0 hq1 hq2]
  show _ ⊢ iprop((_ ↦{fullShare.left} dat.A 0) ∗ (_ ↦{fullShare.right} dat.A 1) ∗ (_ ↦{fullShare} dat.A 2) ∗ (_ ↦{fullShare} dat.A 3))
  rw [hA 0, hA 1, hA 2, hA 3]
  iintro ⟨H0, H1, H3⟩
  ihave H := (pointsTo_share (PosShare.mem_left_op_right fullShare)).1 $$ H0
  icases H with ⟨Hl, Hr⟩
  isplitl [Hl]; · iexact Hl
  isplitl [Hr]; · iexact Hr
  isplitl [H1]; · iexact H1
  iexact H3

/-- The host reshape after the region. -/
abbrev rsOp : HloOp τ sig (Elt F) := StableHlo.reshape main_v0 main_v1 rfl Gen.shapeCasts_S1x1_S_

set_option backward.isDefEq.respectTransparency.types false in
/-- The line after the region: the reshape reads the output window's array (held at the full share) and writes the
    scalar result's buffer, one of the buffers that bypass the region; the arrays come back unchanged. -/
theorem htail_of {c : Dev nD} (m : (ℓ : Loc nD τ sig) → Buf (Elt F) ℓ) (dat : Dat τ (Elt F) Unit ℕ (UR sig nD τ) ℕ cfg0 c)
    (hq0 : dat.q 0 = fullShare.left) (hq1 : dat.q 1 = fullShare.right) (hq2 : dat.q 2 = fullShare) (Q' : PUnit → sProp 𝕄) :
    iprop((iprop(dat.arrays (dat.arrAt · cfg0.N) ∗ (((c.tc : Thread nD τ).loc main_v1) ↦{fullShare} scalarOf (dat.arrAt 3 cfg0.N))) -∗ Q' ⟨⟩)
        ∗ boundary (c.tc : Thread nD τ) ∗ dat.arrays (dat.arrAt · cfg0.N)
        ∗ Pipeline.unscopedRestP (Ix := Unit) (Name := ℕ) (U := UR sig nD τ) (Lvl := ℕ) Pipeline.Prefetch.none spec0 c (fun b => m ((c.tc : Thread nD τ).loc b)))
      ⊢ wp frame (wpE (Pipeline.defs (fun p => (cfgs p).toPCfg (Val := Elt F)) defs₀) (Variants.lift Variants.none) (c.tc : Thread nD τ) none) Set.univ
          (Pipeline.chain [StableHlo.seq Gen.hostOps1]) Q' := by
  classical
  rw [Pipeline.unscopedRestP_none, Gen.unscopedRest0_eq, arrays_eq4 dat hq0 hq1 hq2]
  have hne : (Proc.devRef (τ := τ) .tc main_v1 : DevRef τ sig) ≠ Proc.devRef .tc main_v0 := StableHlo.devRef_ne_of_ne (by decide)
  let W : Valuation τ sig (Elt F) := Function.update (fun b => m (c, b)) (Proc.devRef .tc main_v0) (dat.arrAt 3 cfg0.N)
  have hW0 : W (Proc.devRef .tc main_v0) = dat.arrAt 3 cfg0.N := Function.update_self ..
  have hW1 : W (Proc.devRef .tc main_v1) = m ((c.tc : Thread nD τ).loc main_v1) := Function.update_of_ne hne ..
  have hheld : ∀ V' : Valuation τ sig (Elt F), (StableHlo.held (c.tc : Thread nD τ) (rsOp (F := F)).bufs V' : sProp 𝕄)
      = iprop((((c.tc : Thread nD τ).loc main_v0) ↦{fullShare} V' (Proc.devRef .tc main_v0)) ∗ (((c.tc : Thread nD τ).loc main_v1) ↦{fullShare} V' (Proc.devRef .tc main_v1))) := fun V' => by
    unfold StableHlo.held
    rw [show (rsOp (F := F)).bufs = {Proc.devRef .tc main_v0, Proc.devRef .tc main_v1} from rfl,
      bigSep_insert (by rw [Finset.mem_singleton]; exact hne.symm), bigSep_singleton]
    rfl
  have hr0 : (rsOp (F := F)).result W (Proc.devRef .tc main_v0) = dat.arrAt 3 cfg0.N :=
    (StableHlo.reshape_result_ne (x := main_v0) (y := main_v1) rfl Gen.shapeCasts_S1x1_S_ _ _ W (by decide)).trans hW0
  have hr1 : (rsOp (F := F)).result W (Proc.devRef .tc main_v1) = scalarOf (dat.arrAt 3 cfg0.N) := by
    rw [show (rsOp (F := F)).result W (Proc.devRef .tc main_v1) = _ from StableHlo.reshape_result main_v0 main_v1 rfl Gen.shapeCasts_S1x1_S_ _ _ W]
    show (fun i => shapeCast S_ (W (Proc.devRef .tc main_v0)) Gen.shapeCasts_S1x1_S_ i) = _
    rw [hW0]; rfl
  have hpost : iprop(boundary (c.tc : Thread nD τ) ∗ (StableHlo.held (c.tc : Thread nD τ) (rsOp (F := F)).bufs (StableHlo.after [rsOp] W) : sProp 𝕄))
      ⊢ iprop((((c.tc : Thread nD τ).loc main_v0) ↦{fullShare} dat.arrAt 3 cfg0.N) ∗ (((c.tc : Thread nD τ).loc main_v1) ↦{fullShare} scalarOf (dat.arrAt 3 cfg0.N))) := by
    rw [StableHlo.after_cons, StableHlo.after_nil, hheld, hr0, hr1]
    iintro ⟨-, H⟩; iexact H
  rw [Pipeline.chain_cons, Pipeline.chain_nil]
  iintro ⟨Hk, Hb, ⟨H0, H1, H2, H3⟩, Hz⟩
  iapply (StableHlo.wp_seq (Variants.lift Variants.none) none Set.univ c (rsOp (F := F)).bufs (fun _ => pure ⟨⟩) [rsOp]
    (by intro op hop; rw [List.mem_singleton.mp hop]) (by intro op hop; rw [List.mem_singleton.mp hop]; rfl) W) $$ [Hb H3 Hz]
  · isplitl [Hb]; · iexact Hb
    rw [hheld W, hW0, hW1]
    isplitl [H3]; · iexact H3
    iexact Hz
  iintro Hh
  ihave Hh := hpost $$ Hh
  rw [wp_pure]
  imodintro
  iapply Hk
  icases Hh with ⟨H3, Hz⟩
  isplitr [Hz]
  · isplitl [H0]; · iexact H0
    isplitl [H1]; · iexact H1
    isplitl [H2]; · iexact H2
    iexact H3
  · iexact Hz

theorem run_of (m : (ℓ : Loc nD τ sig) → Buf (Elt F) ℓ) (ρ : Dev nD → PrngReg)
    (dats : (c : Dev nD) → Pipeline.Dat τ (Elt F) Unit ℕ (UR sig nD τ) ℕ cfg0 c)
    (hbody : ∀ c, Pipeline.BodyObligationLoose (dats c) (defs₀ (F := F)) Variants.none () Set.univ)
    (hq0 : ∀ c, (dats c).q 0 = fullShare.left) (hq1 : ∀ c, (dats c).q 1 = fullShare.right) (hq2 : ∀ c, (dats c).q 2 = fullShare)
    (howed : ∀ c t, (dats c).owed t = 0)
    (hA : ∀ c w, (dats c).A w = m ((c.tc : Thread nD τ).loc (Pipeline.arrRef spec0 w)))
    (hin : ∀ c, Pipeline.ΦA spec0 c ⊢ (dats c).Φ 0)
    (hout : ∀ c, (dats c).Φ (Fin.last cfg0.N) ⊢ Pipeline.ΦA spec0 c) :
    θ_run (defs (F := F)) (onTc (τ := τ) (main (F := F))) ⟨m, fun _ => 0, ρ⟩ (fun r => ∀ c : Dev nD,
      r.2.mem ((c.tc : Thread nD τ).loc main_v1) = scalarOf ((dats c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun p => (cfgs p).toPCfg (Val := Elt F)) (fun p => (cfgs p).toPCfg_adm) (fun _ => dats) ()
    Gen.cellOf_inj 0 Gen.winFacts₀0 (Pipeline.OwnSemFacts.none spec0) (Pipeline.PreFacts.none _) emb₁ defs₀ Variants.none m ρ main
    (fun _ => Pipeline.chain [StableHlo.seq Gen.hostOps1]) hbody
    Gen.block_pos0 Gen.arr_whole0 Gen.stage_whole0 howed
    (G := fun _ => iprop(emp)) (u₀ := initOf (Pipeline.cells cfgs Gen.cellOf_inj) (Pipeline.launchToks cfgs Gen.cellOf_inj))
    (hu₀ := by
      iintro Hu; imodintro
      isplitl [Hu]; · iapply (show (ownU _ : sProp 𝕄) ⊢ BI.own (emb₁ (initOf (Pipeline.cells cfgs Gen.cellOf_inj) (Pipeline.launchToks cfgs Gen.cellOf_inj))) from .rfl); iexact Hu
      iapply (show (BI.emp : sProp 𝕄) ⊢ bigSep Finset.univ (fun _ : Dev nD => (BI.emp : sProp 𝕄)) from by rw [BI.bigSep_emp_const])
      iempintro)
    (V := fun c b => m ((c.tc : Thread nD τ).loc b)) (hmain := hmain Variants.none m)
    (hsplit := fun c => hsplit_of m (dats c) (hq0 c) (hq1 c) (hq2 c) (hA c))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (fun b => m ((c.tc : Thread nD τ).loc b)))
    (Z' := fun c => iprop(((c.tc : Thread nD τ).loc main_v1) ↦{fullShare} scalarOf ((dats c).arrAt 3 cfg0.N)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_of m (dats c) (hq0 c) (hq1 c) (hq2 c) Q')
    (QY := fun c s => s.mem ((c.tc : Thread nD τ).loc main_v1) = scalarOf ((dats c).arrAt 3 cfg0.N))
    (hY := fun c s' => by
      iintro ⟨-, Hz, HSI⟩
      imodintro
      icombine HSI Hz gives %h
      isplitr
      · ipureintro; exact Buf.eq_of_forall_mem_univ h
      · iexact HSI)
    (hQ := fun s h c => ⟨(h c).2.2,
      ((h c).1 0).trans (((dats c).arrAt_in 0 rfl _).trans (hA c 0)),
      ((h c).1 2).trans (((dats c).arrAt_in 2 rfl _).trans (hA c 2))⟩)

end Cert.KernelIdeal.Hand

end
-- ==== Proof.KI.Run.lean ====
/-
  The idealized kernel's run, read: every weakly fair execution of @main terminates; the scalar result is the
  specification's result (the last grid point's stored quotient, reshaped from 1 × 1 to a scalar), and both
  argument arrays end unchanged.
-/
import proofs.«124996_j45552423141451_2_alg».proof.Proof.KI.Value
import proofs.«124996_j45552423141451_2_alg».proof.Proof.KI.Launch

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The scalar read at its one index is the 1 × 1 array's one entry. -/
theorem scalarOf_apply {c : Dev nD} (a : Buf (Elt F) ((cfg0.win 3).arr.view.loc (c.tc : Thread nD τ))) (i) :
    scalarOf a i = a (ValueIdx.ix2 0 0) := by
  have hi : i = ValueIdx.ix0 := funext fun d => d.elim0
  subst hi
  exact scalarOf_ix0 a

/-- The run over this kernel's proof data: the batch array's share halved between its two windows. -/
theorem run_dats : θ_run (defs (F := F)) (onTc (τ := τ) (main (F := F))) ⟨m, fun _ => 0, ρ⟩ (fun r => ∀ c : Dev nD,
      r.2.mem ((c.tc : Thread nD τ).loc main_v1) = scalarOf ((dats m c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (fun c => (body_obligation m c).loose) (fun _ => rfl) (fun _ => rfl) (fun _ => rfl) (fun _ _ => rfl)
    (A_eq m) (hin m) (hout m)

/-- The same with the result array opened: the scalar is the specification's result. -/
theorem run : θ_run (defs (F := F)) (onTc (τ := τ) (main (F := F))) ⟨m, fun _ => 0, ρ⟩ (fun r => ∀ c : Dev nD,
      r.2.mem ((c.tc : Thread nD τ).loc main_v1) = scalarOf (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => ⟨(h c).1.trans (congrArg scalarOf (final3 m c)), (h c).2⟩) (run_dats m ρ)

/-- The same with the scalar as a constant function of its (one) index. -/
theorem run_scalar : θ_run (defs (F := F)) (onTc (τ := τ) (main (F := F))) ⟨m, fun _ => 0, ρ⟩ (fun r => ∀ c : Dev nD,
      r.2.mem ((c.tc : Thread nD τ).loc main_v1)
          = ((fun _ => Spec.out (m ((c.tc : Thread nD τ).loc main_arg0)) (m ((c.tc : Thread nD τ).loc main_arg1)) (ValueIdx.ix2 0 0)) :
              Buf (Elt F) ((c.tc : Thread nD τ).loc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => ⟨(h c).1.trans (funext fun i => scalarOf_apply (result m c) i), (h c).2⟩) (run m ρ)

/-- The frame: it runs to the end, faults nowhere, and leaves both argument arrays unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => (h c).2) (run_dats m ρ)

end Cert.KernelIdeal.Hand

end
-- ==== Proof.PayloadAt.lean ====
/-
  The kernel body's arithmetic, read at the one index of its 1 × 1 results.

  At a grid point the body holds three 128 × 128 blocks: x (the batch array's columns of the point's row block),
  y (its columns of the point's column block) and w (the weight block).  It forms the 128 × 128 × 128 table
  (y[b,c] − x[b,r])² · w[r,c], sums it one axis at a time, and adds the total to the first running cell; it
  counts w's positive entries the same way into the second.  Below, each of these terms is read as the plain
  iterated sum it denotes on the extended reals.
-/
import proofs.«124996_j45552423141451_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Proof.Bridge

open Idealize.ShloMosaic Idealize.ShloMosaic.ValueIdx Cert.KernelIdeal Cert.KernelIdeal.Gen

/-- A 1 × 1 array has one index. -/
theorem idx11 (i : S1x1.Idx) : i = ix2 (0 : Fin 1) (0 : Fin 1) := by
  funext d
  match d with
  | ⟨0, _⟩ => exact Fin.ext (by have := idx2_lt0 i; show (i 0).val = 0; omega)
  | ⟨1, _⟩ => exact Fin.ext (by have := idx2_lt1 i; show (i 1).val = 0; omega)

/-! ## Unit axes added by a cast, and unit axes stretched by a broadcast -/

section Layout
variable {α : Type}

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A `[128, 1, 128]` array stretched along its middle axis reads `(b, 0, c)` at `(b, r, c)`. -/
theorem broadcastTo_mid_apply (x : S128x1x128.Idx → α) (h : S128x1x128.Broadcasts S128x128x128) (b r c : Fin 128) :
    broadcastTo S128x128x128 x h (ix3 b r c) = x (ix3 b (0 : Fin 1) c) := by
  refine broadcastTo_apply x h (ix3 b r c) (ix3 b (0 : Fin 1) c) fun ax => ?_
  match ax with
  | ⟨0, _⟩ => show b.val = if (128 : ℕ) = 1 then 0 else b.val; rw [if_neg (by decide)]
  | ⟨1, _⟩ => show 0 = if (1 : ℕ) = 1 then 0 else r.val; rw [if_pos rfl]
  | ⟨2, _⟩ => show c.val = if (128 : ℕ) = 1 then 0 else c.val; rw [if_neg (by decide)]

/-- A `[128, 128, 1]` array stretched along its last axis reads `(b, r, 0)` at `(b, r, c)`. -/
theorem broadcastTo_last_apply (x : S128x128x1.Idx → α) (h : S128x128x1.Broadcasts S128x128x128) (b r c : Fin 128) :
    broadcastTo S128x128x128 x h (ix3 b r c) = x (ix3 b r (0 : Fin 1)) := by
  refine broadcastTo_apply x h (ix3 b r c) (ix3 b r (0 : Fin 1)) fun ax => ?_
  match ax with
  | ⟨0, _⟩ => show b.val = if (128 : ℕ) = 1 then 0 else b.val; rw [if_neg (by decide)]
  | ⟨1, _⟩ => show r.val = if (128 : ℕ) = 1 then 0 else r.val; rw [if_neg (by decide)]
  | ⟨2, _⟩ => show 0 = if (1 : ℕ) = 1 then 0 else c.val; rw [if_pos rfl]

/-- A `[1, 128, 128]` array stretched along its first axis reads `(0, r, c)` at `(b, r, c)`. -/
theorem broadcastTo_first_apply (x : S1x128x128.Idx → α) (h : S1x128x128.Broadcasts S128x128x128) (b r c : Fin 128) :
    broadcastTo S128x128x128 x h (ix3 b r c) = x (ix3 (0 : Fin 1) r c) := by
  refine broadcastTo_apply x h (ix3 b r c) (ix3 (0 : Fin 1) r c) fun ax => ?_
  match ax with
  | ⟨0, _⟩ => show 0 = if (1 : ℕ) = 1 then 0 else b.val; rw [if_pos rfl]
  | ⟨1, _⟩ => show r.val = if (128 : ℕ) = 1 then 0 else r.val; rw [if_neg (by decide)]
  | ⟨2, _⟩ => show c.val = if (128 : ℕ) = 1 then 0 else c.val; rw [if_neg (by decide)]

end Layout

/-! ## The lane sums, one axis at a time -/

/-- The sum over the last axis of a 128 × 128 × 128 table. -/
theorem sumLast_apply (x : FVec Ideal S128x128x128 .f32) (h : S128x128x128.Reduces [2] S128x128)
    (hφ : FKind.Formats .f32) (hacc : (0x00000000#32 : BitVec 32) = FKind.add.neutral .f32 hφ) (b r : Fin 128) :
    multiReduction .add [2] S128x128 x 0x00000000#32 h hφ hacc (ix2 b r) = ∑ c : Fin 128, x (ix3 b r c) := by
  refine (Ideal.multiReduction_add_single x _ h hφ hacc (ix2 b r)).trans ?_
  refine Finset.sum_congr rfl fun c _ => congrArg x ?_
  funext a
  match a with
  | ⟨0, _⟩ => rfl
  | ⟨1, _⟩ => rfl
  | ⟨2, _⟩ => rfl

/-- The sum over the columns of a 128 × 128 table. -/
theorem sumCols_apply (y : FVec Ideal S128x128 .f32) (h : S128x128.Reduces [1] S128)
    (hφ : FKind.Formats .f32) (hacc : (0x00000000#32 : BitVec 32) = FKind.add.neutral .f32 hφ) (r : Fin 128) :
    multiReduction .add [1] S128 y 0x00000000#32 h hφ hacc (ix1 r) = ∑ c : Fin 128, y (ix2 r c) := by
  refine (Ideal.multiReduction_add_single y _ h hφ hacc (ix1 r)).trans ?_
  refine Finset.sum_congr rfl fun c _ => congrArg y ?_
  funext a
  match a with
  | ⟨0, _⟩ => rfl
  | ⟨1, _⟩ => rfl

/-- The sum down a 128 × 1 column. -/
theorem sumRows_apply (z : FVec Ideal S128x1 .f32) (h : S128x1.Reduces [0] S1)
    (hφ : FKind.Formats .f32) (hacc : (0x00000000#32 : BitVec 32) = FKind.add.neutral .f32 hφ) (u : Fin 1) :
    multiReduction .add [0] S1 z 0x00000000#32 h hφ hacc (ix1 u) = ∑ r : Fin 128, z (ix2 r u) := by
  refine (Ideal.multiReduction_add_single z _ h hφ hacc (ix1 u)).trans ?_
  refine Finset.sum_congr rfl fun r _ => congrArg z ?_
  funext a
  match a with
  | ⟨0, _⟩ => rfl
  | ⟨1, _⟩ => rfl

/-- A 128 × 128 table summed along its columns, then down the resulting column, kept 1 × 1: the double sum. -/
theorem sumAll_apply (y : FVec Ideal S128x128 .f32) (h1 : S128x128.Reduces [1] S128) (h0 : S128x1.Reduces [0] S1)
    (c1 : S128.ShapeCasts S128x1) (c2 : S1.ShapeCasts S1x1)
    (hφ : FKind.Formats .f32) (hacc : (0x00000000#32 : BitVec 32) = FKind.add.neutral .f32 hφ) :
    shapeCast S1x1 (multiReduction .add [0] S1 (shapeCast S128x1 (multiReduction .add [1] S128 y 0x00000000#32 h1 hφ hacc) c1)
        0x00000000#32 h0 hφ hacc) c2 (ix2 (0 : Fin 1) (0 : Fin 1))
      = ∑ r : Fin 128, ∑ c : Fin 128, y (ix2 r c) := by
  refine (shapeCast_a_1a_apply _ c2 0 0).trans ?_
  refine (sumRows_apply _ h0 hφ hacc 0).trans ?_
  refine Finset.sum_congr rfl fun r _ => ?_
  refine (shapeCast_a_a1_apply _ c1 r 0).trans ?_
  exact sumCols_apply y h1 hφ hacc r

/-! ## The payloads -/

/-- The weighted squared difference the body sums, at batch row `b`, block row `r`, block column `c`. -/
def term (x y w : S128x128.Idx → EReal) (b r c : Fin 128) : EReal :=
  (y (ix2 b c) - x (ix2 b r)) * (y (ix2 b c) - x (ix2 b r)) * w (ix2 r c)

/-- One entry of the positive count: 1 where the weight is above zero, else 0. -/
def pos (v : EReal) : EReal :=
  (((FloatOps.cmpf (F := Ideal) (φ := .f32) .ogt v (FloatOps.ofBits .f32 0x00000000#32)).toNat : ℝ) : EReal)

/-- The first running cell after a point: the cell before it plus the block's weighted sum. -/
theorem pay6_apply (x y w : Vec Ideal S128x128 .f32) (s : Vec Ideal S1x1 .f32) (i : S1x1.Idx) :
    k0_pay6 (F := Ideal) x y w s i = s i + ∑ b : Fin 128, ∑ r : Fin 128, ∑ c : Fin 128, term x y w b r c := by
  obtain rfl := idx11 i
  unfold k0_pay6
  refine (congrFun (shapeCast_self _ _) _).trans ?_
  refine congrArg (s (ix2 (0 : Fin 1) (0 : Fin 1)) + ·) ?_
  refine (sumAll_apply _ _ _ _ _ _ _).trans ?_
  refine Finset.sum_congr rfl fun b _ => Finset.sum_congr rfl fun r _ => ?_
  refine (sumLast_apply _ _ _ _ b r).trans ?_
  refine Finset.sum_congr rfl fun c _ => ?_
  have ey : broadcastTo S128x128x128 (shapeCast S128x1x128 y shapeCasts_S128x128_S128x1x128)
      broadcasts_S128x1x128_S128x128x128 (ix3 b r c) = y (ix2 b c) :=
    (broadcastTo_mid_apply _ _ b r c).trans (shapeCast_ab_a1b_apply y _ b 0 c)
  have ex : broadcastTo S128x128x128 (shapeCast S128x128x1 x shapeCasts_S128x128_S128x128x1)
      broadcasts_S128x128x1_S128x128x128 (ix3 b r c) = x (ix2 b r) :=
    (broadcastTo_last_apply _ _ b r c).trans (shapeCast_ab_ab1_apply x _ b r 0)
  have ew : broadcastTo S128x128x128 (shapeCast S1x128x128 w shapeCasts_S128x128_S1x128x128)
      broadcasts_S1x128x128_S128x128x128 (ix3 b r c) = w (ix2 r c) :=
    (broadcastTo_first_apply _ _ b r c).trans (shapeCast_ab_1ab_apply w _ 0 r c)
  show (_ - _) * (_ - _) * _ = term x y w b r c
  rw [ey, ex, ew]
  rfl

/-- A bit, widened to a word and read as a signed integer, is the bit read as a natural number. -/
theorem toInt_setWidth_bit (v : BitVec 1) : (((v.setWidth 32).toInt : ℤ) : ℝ) = ((v.toNat : ℕ) : ℝ) := by
  rcases BitVec.eq_zero_or_eq_one v with h | h <;> subst h <;> norm_num <;> decide

/-- The block's count of positive weights. -/
theorem pay5_apply (w : Vec Ideal S128x128 .f32) (i : S1x1.Idx) :
    k0_pay5 (F := Ideal) w i = ∑ r : Fin 128, ∑ c : Fin 128, pos (w (ix2 r c)) := by
  obtain rfl := idx11 i
  unfold k0_pay5
  refine (sumAll_apply _ _ _ _ _ _ _).trans ?_
  refine Finset.sum_congr rfl fun r _ => Finset.sum_congr rfl fun c _ => ?_
  show (((((FloatOps.cmpf (F := Ideal) (φ := .f32) .ogt (w (ix2 r c)) (FloatOps.ofBits .f32 0x00000000#32)).setWidth 32).toInt : ℤ) : ℝ) : EReal)
    = pos (w (ix2 r c))
  rw [toInt_setWidth_bit]
  rfl

/-- The second running cell after a point: the cell before it plus the block's count. -/
theorem pay1_apply (n s : Vec Ideal S1x1 .f32) (i : S1x1.Idx) : k0_pay1 (F := Ideal) n s i = s i + n i := by
  unfold k0_pay1
  exact congrFun (shapeCast_self _ _) i

/-- Both running cells start at zero. -/
theorem pay3_apply (i : S1x1.Idx) : k0_pay3 (F := Ideal) i = 0 := by
  unfold k0_pay3
  refine (congrFun (shapeCast_self _ _) i).trans ?_
  exact Ideal.ofBits_zero_f32

theorem pay4_apply (i : S1x1.Idx) : k0_pay4 (F := Ideal) i = 0 := by
  unfold k0_pay4
  refine (congrFun (shapeCast_self _ _) i).trans ?_
  exact Ideal.ofBits_zero_f32

/-- The stored result: the first cell over 128, over the second cell plus ε. -/
theorem pay2_apply (s n : Vec Ideal S1x1 .f32) (i : S1x1.Idx) :
    k0_pay2 (F := Ideal) s n i
      = Ideal.div (Ideal.div (s i) (Ideal.ofBits .f32 0x43000000#32)) (n i + Ideal.ofBits .f32 0x322BCC77#32) := rfl

end Cert.Proof.Bridge

end
-- ==== Proof.Algebra.lean ====
/-
  Laws over finite sums that the two programs differ by, proved once over abstract summands.

  The reference sums a 1024 × 1024 table entry by entry; the kernel walks an 8 × 8 grid of 128 × 128 blocks
  row-major and sums each block.  Index 128·a + i of a 1024-long axis is position i of block a, so a sum over the
  axis is the double sum over blocks and positions, and a sum over grid points 0 … 63 is the double sum over block
  rows and block columns.  Both re-indexings hold in any commutative additive monoid, the extended reals included.
  The one law that is not pure re-association is that a nonnegative real factor moves across a finite sum of
  extended reals; it does, at the infinities too.
-/
import Mathlib.Data.EReal.Operations
import Mathlib.Algebra.BigOperators.Fin
import Mathlib.Algebra.BigOperators.Group.Finset.Basic
import Mathlib.Data.Fintype.BigOperators

open scoped BigOperators

namespace Cert.Proof.Bridge

/-- A nonnegative real factor distributes over a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- Position `i` of block `a` on an axis of length 1024 cut into 8 blocks of 128. -/
def blk (a : Fin 8) (i : Fin 128) : Fin 1024 :=
  ⟨a.val * 128 + i.val, by have := a.isLt; have := i.isLt; omega⟩

@[simp] theorem blk_val (a : Fin 8) (i : Fin 128) : (blk a i).val = a.val * 128 + i.val := rfl

/-- Every index of the long axis is a position of exactly one block. -/
def blkEquiv : Fin 8 × Fin 128 ≃ Fin 1024 where
  toFun p := blk p.1 p.2
  invFun i := (⟨i.val / 128, by have := i.isLt; omega⟩, ⟨i.val % 128, Nat.mod_lt _ (by norm_num)⟩)
  left_inv p := by
    rcases p with ⟨a, i⟩
    have := a.isLt; have := i.isLt
    refine Prod.ext (Fin.ext ?_) (Fin.ext ?_)
    · show (a.val * 128 + i.val) / 128 = a.val; omega
    · show (a.val * 128 + i.val) % 128 = i.val; omega
  right_inv i := by
    refine Fin.ext ?_
    show i.val / 128 * 128 + i.val % 128 = i.val; omega

/-- A sum over the long axis is the sum over blocks of the sums over positions. -/
theorem sum_blk {M : Type*} [AddCommMonoid M] (g : Fin 1024 → M) :
    ∑ i, g i = ∑ a : Fin 8, ∑ i : Fin 128, g (blk a i) := by
  rw [← Equiv.sum_comp blkEquiv g, Fintype.sum_prod_type]
  rfl

/-- Block row of grid point `n` of the row-major 8 × 8 walk. -/
def rowOf (n : ℕ) : Fin 8 := ⟨n / 8 % 8, Nat.mod_lt _ (by norm_num)⟩
/-- Block column of grid point `n`. -/
def colOf (n : ℕ) : Fin 8 := ⟨n % 8, Nat.mod_lt _ (by norm_num)⟩

theorem rowOf_pt (a b : Fin 8) : rowOf (a.val * 8 + b.val) = a := by
  have := a.isLt; have := b.isLt
  refine Fin.ext ?_
  show (a.val * 8 + b.val) / 8 % 8 = a.val; omega

theorem colOf_pt (a b : Fin 8) : colOf (a.val * 8 + b.val) = b := by
  have := a.isLt; have := b.isLt
  refine Fin.ext ?_
  show (a.val * 8 + b.val) % 8 = b.val; omega

/-- The 64 grid points are the pairs (block row, block column). -/
def ptEquiv : Fin 8 × Fin 8 ≃ Fin 64 where
  toFun p := ⟨p.1.val * 8 + p.2.val, by have := p.1.isLt; have := p.2.isLt; omega⟩
  invFun n := (⟨n.val / 8, by have := n.isLt; omega⟩, ⟨n.val % 8, Nat.mod_lt _ (by norm_num)⟩)
  left_inv p := by
    rcases p with ⟨a, b⟩
    have := a.isLt; have := b.isLt
    refine Prod.ext (Fin.ext ?_) (Fin.ext ?_)
    · show (a.val * 8 + b.val) / 8 = a.val; omega
    · show (a.val * 8 + b.val) % 8 = b.val; omega
  right_inv n := by
    refine Fin.ext ?_
    show n.val / 8 * 8 + n.val % 8 = n.val; omega

/-- A sum over the first 64 grid points is the sum over block rows of the sums over block columns. -/
theorem sum_range64 {M : Type*} [AddCommMonoid M] (h : ℕ → M) :
    ∑ n ∈ Finset.range 64, h n = ∑ a : Fin 8, ∑ b : Fin 8, h (a.val * 8 + b.val) := by
  rw [Finset.sum_range, ← Equiv.sum_comp ptEquiv (fun n : Fin 64 => h n.val), Fintype.sum_prod_type]
  rfl

/-- The table summed entry by entry is the table summed block by block along the row-major walk of the grid. -/
theorem grid_sum {M : Type*} [AddCommMonoid M] (f : Fin 1024 → Fin 1024 → M) :
    ∑ i, ∑ j, f i j
      = ∑ n ∈ Finset.range 64, ∑ i : Fin 128, ∑ j : Fin 128, f (blk (rowOf n) i) (blk (colOf n) j) := by
  rw [sum_range64, sum_blk]
  refine Finset.sum_congr rfl fun a _ => ?_
  have e : ∀ i : Fin 128, ∑ j, f (blk a i) j = ∑ b : Fin 8, ∑ j : Fin 128, f (blk a i) (blk b j) :=
    fun i => sum_blk _
  rw [Finset.sum_congr rfl fun i _ => e i, Finset.sum_comm]
  refine Finset.sum_congr rfl fun b _ => ?_
  rw [rowOf_pt, colOf_pt]

end Cert.Proof.Bridge
-- ==== Proof.KernelSum.lean ====
/-
  What the kernel stores, in closed form.

  Write t(b, i, j) = (p[b,j] − p[b,i])² · c[i,j] for the summand on the whole arrays.  Position (r, c) of block
  (a, a') of a 1024 × 1024 table is entry (128·a + r, 128·a' + c), and the body's blocks are exactly these
  restrictions, so after n grid points the first running cell holds the sum of t over batch rows and over the
  entries of the first n blocks of the row-major walk, and the second holds the count of positive weights in
  those blocks.  After all 64 points the blocks have covered the table once: the cells hold the full sums.
-/
import proofs.«124996_j45552423141451_2_alg».proof.Proof.PayloadAt
import proofs.«124996_j45552423141451_2_alg».proof.Proof.Algebra

noncomputable section

open scoped BigOperators

namespace Cert.Proof.Bridge

open Idealize.ShloMosaic Idealize.ShloMosaic.ValueIdx Cert.KernelIdeal Cert.KernelIdeal.Gen

/-- The summand on the whole arrays: batch row `b`, table entry `(i, j)`. -/
def summand (P : Vec Ideal S128x1024 .f32) (C : Vec Ideal S1024x1024 .f32) (b : Fin 128) (i j : Fin 1024) : EReal :=
  (P (ix2 b j) - P (ix2 b i)) * (P (ix2 b j) - P (ix2 b i)) * C (ix2 i j)

/-- 128.0 and ε as the extended reals their words denote; ε is never evaluated. -/
abbrev c128 : EReal := Ideal.ofBits .f32 0x43000000#32
abbrev cEps : EReal := Ideal.ofBits .f32 0x322BCC77#32

theorem rowOf_eq (n : ℕ) : Spec.rowOf n = rowOf n := rfl
theorem colOf_eq (n : ℕ) : Spec.colOf n = colOf n := rfl

/-- The body's summand on the blocks of a grid point is the whole-array summand at the block's entries. -/
theorem term_block (P : Vec Ideal S128x1024 .f32) (C : Vec Ideal S1024x1024 .f32) (a a' : Fin 8) (b r c : Fin 128) :
    term (Spec.colBlock P a) (Spec.colBlock P a') (Spec.matBlock C a a') b r c = summand P C b (blk a r) (blk a' c) := rfl

theorem pos_block (C : Vec Ideal S1024x1024 .f32) (a a' : Fin 8) (r c : Fin 128) :
    pos (Spec.matBlock C a a' (ix2 r c)) = pos (C (ix2 (blk a r) (blk a' c))) := rfl

/-- The first running cell after `n` grid points. -/
theorem acc_fst (P : Vec Ideal S128x1024 .f32) (C : Vec Ideal S1024x1024 .f32) (n : ℕ) (i : S1x1.Idx) :
    (Spec.acc P C n).1 i
      = ∑ m ∈ Finset.range n, ∑ b : Fin 128, ∑ r : Fin 128, ∑ c : Fin 128,
          summand P C b (blk (rowOf m) r) (blk (colOf m) c) := by
  induction n with
  | zero =>
    show k0_pay3 (F := Ideal) i = _
    rw [Finset.range_zero, Finset.sum_empty]
    exact pay3_apply i
  | succ n ih =>
    show k0_pay6 (F := Ideal) (Spec.colBlock P (Spec.rowOf n)) (Spec.colBlock P (Spec.colOf n))
      (Spec.matBlock C (Spec.rowOf n) (Spec.colOf n)) (Spec.acc P C n).1 i = _
    refine (pay6_apply _ _ _ _ i).trans ?_
    rw [ih, Finset.sum_range_succ]
    rfl

/-- The second running cell after `n` grid points. -/
theorem acc_snd (P : Vec Ideal S128x1024 .f32) (C : Vec Ideal S1024x1024 .f32) (n : ℕ) (i : S1x1.Idx) :
    (Spec.acc P C n).2 i
      = ∑ m ∈ Finset.range n, ∑ r : Fin 128, ∑ c : Fin 128, pos (C (ix2 (blk (rowOf m) r) (blk (colOf m) c))) := by
  induction n with
  | zero =>
    show k0_pay4 (F := Ideal) i = _
    rw [Finset.range_zero, Finset.sum_empty]
    exact pay4_apply i
  | succ n ih =>
    show k0_pay1 (F := Ideal) (k0_pay5 (Spec.matBlock C (Spec.rowOf n) (Spec.colOf n))) (Spec.acc P C n).2 i = _
    refine (pay1_apply _ _ i).trans ?_
    rw [ih, Finset.sum_range_succ, pay5_apply]
    rfl

/-- The weighted sum over the whole table, batch rows innermost. -/
def total (P : Vec Ideal S128x1024 .f32) (C : Vec Ideal S1024x1024 .f32) : EReal :=
  ∑ i : Fin 1024, ∑ j : Fin 1024, ∑ b : Fin 128, summand P C b i j

/-- The number of positive weights, as an extended real. -/
def count (C : Vec Ideal S1024x1024 .f32) : EReal :=
  ∑ i : Fin 1024, ∑ j : Fin 1024, pos (C (ix2 i j))

theorem acc_fst_total (P : Vec Ideal S128x1024 .f32) (C : Vec Ideal S1024x1024 .f32) (i : S1x1.Idx) :
    (Spec.acc P C 64).1 i = total P C := by
  rw [acc_fst, total, grid_sum (fun i j => ∑ b : Fin 128, summand P C b i j)]
  refine Finset.sum_congr rfl fun m _ => ?_
  rw [Finset.sum_comm]
  exact Finset.sum_congr rfl fun r _ => Finset.sum_comm

theorem acc_snd_count (P : Vec Ideal S128x1024 .f32) (C : Vec Ideal S1024x1024 .f32) (i : S1x1.Idx) :
    (Spec.acc P C 64).2 i = count C := by
  rw [acc_snd, count, grid_sum (fun i j => pos (C (ix2 i j)))]

/-- What the last grid point stores. -/
theorem out_eq (P : Vec Ideal S128x1024 .f32) (C : Vec Ideal S1024x1024 .f32) (i : S1x1.Idx) :
    Spec.out (F := Ideal) P C i = Ideal.div (Ideal.div (total P C) c128) (count C + cEps) := by
  show k0_pay2 (F := Ideal) (Spec.acc P C 64).1 (Spec.acc P C 64).2 i = _
  rw [pay2_apply, acc_fst_total, acc_snd_count]

end Cert.Proof.Bridge

end
-- ==== Proof.RefSum.lean ====
/-
  What the reference computes, in closed form.

  The reference forms the same summand t(b, i, j) = (p[b,j] − p[b,i])² · c[i,j] on the whole 128 × 1024 × 1024
  table, sums it over the batch rows b, divides each of the 1024 × 1024 sums by 128, and adds the quotients;
  the divisor is the count of positive weights plus ε.  Division by 128 is multiplication by the nonnegative real
  1/128, which moves across a finite sum of extended reals, so the sum of the quotients is the quotient of the
  total.
-/
import proofs.«124996_j45552423141451_2_alg».proof.Proof.Gen.ReferenceIdeal.Read
import proofs.«124996_j45552423141451_2_alg».proof.Proof.KernelSum

noncomputable section

open scoped BigOperators

namespace Cert.Proof.Bridge

open Idealize.ShloMosaic Idealize.ShloMosaic.ValueIdx Cert.ReferenceIdeal Cert.ReferenceIdeal.Gen Cert.ReferenceIdeal.Read

/-- The word of 128.0 denotes the real 128. -/
theorem c128_eq : c128 = ((128 : ℝ) : EReal) := by
  show Ideal.ofBits .f32 0x43000000#32 = _
  simp [Ideal.ofBits, Ideal.ieee, -EReal.coe_mul]
  norm_num

/-- Dividing every term of a finite sum by a positive real divides the sum. -/
theorem sum_div_coe {ι : Type*} (s : Finset ι) (f : ι → EReal) {c : ℝ} (hc : 0 < c) :
    ∑ i ∈ s, Ideal.div (f i) (c : EReal) = Ideal.div (∑ i ∈ s, f i) (c : EReal) := by
  rw [Ideal.div_coe hc.ne', sum_mul_coe s f (by positivity : (0 : ℝ) ≤ 1 / c)]
  exact Finset.sum_congr rfl fun i _ => Ideal.div_coe hc.ne' (f i)

/-- The reference's table entry at batch row `b` and table entry `(i, j)` is the summand. -/
theorem ref_entry (P : Vec Ideal S128x1024 .f32) (C : Vec Ideal S1024x1024 .f32) (i j : Fin 1024) (b : Fin 128) :
    val_main_v8 (F := Ideal) P C (idx_main_v13 (ix2 i j) b) = summand P C b i j := by
  have e0 : idx_main_v0 (idx_main_v2 (idx_main_v13 (ix2 i j) b)) = ix2 b j := by
    funext a; match a with | ⟨0, _⟩ => rfl | ⟨1, _⟩ => rfl
  have e1 : idx_main_v1 (idx_main_v3 (idx_main_v13 (ix2 i j) b)) = ix2 b i := by
    funext a; match a with | ⟨0, _⟩ => rfl | ⟨1, _⟩ => rfl
  have e6 : idx_main_v6 (idx_main_v7 (idx_main_v13 (ix2 i j) b)) = ix2 i j := by
    funext a; match a with | ⟨0, _⟩ => rfl | ⟨1, _⟩ => rfl
  rw [val_main_v8_apply, val_main_v5_apply, val_main_v4_apply, val_main_v2_apply, val_main_v0_apply,
    val_main_v3_apply, val_main_v1_apply, val_main_v7_apply, val_main_v6_apply, e0, e1, e6]
  rfl

/-- The reference's positive indicator at a table entry. -/
theorem ref_pos (C : Vec Ideal S1024x1024 .f32) (i j : Fin 1024) :
    val_main_v11 (F := Ideal) C (ix2 i j) = pos (C (ix2 i j)) := by
  rw [val_main_v11_apply, val_main_v10_apply, val_main_v9_apply, val_main_cst_apply]
  rfl

/-- The reference's count of positive weights. -/
theorem ref_count (C : Vec Ideal S1024x1024 .f32) (i : S_.Idx) : val_main_v12 (F := Ideal) C i = count C := by
  rw [val_main_v12_apply, val_main_cst_0_apply]
  show Ideal.ofBits .f32 0x00000000#32 + _ = _
  rw [Ideal.ofBits_zero_f32, zero_add, sum_idx2]
  exact Finset.sum_congr rfl fun i _ => Finset.sum_congr rfl fun j _ => ref_pos C i j

/-- The reference's batch sum at a table entry. -/
theorem ref_batch (P : Vec Ideal S128x1024 .f32) (C : Vec Ideal S1024x1024 .f32) (i j : Fin 1024) :
    val_main_v13 (F := Ideal) P C (ix2 i j) = ∑ b : Fin 128, summand P C b i j := by
  rw [val_main_v13_apply, val_main_cst_1_apply]
  show Ideal.ofBits .f32 0x00000000#32 + _ = _
  rw [Ideal.ofBits_zero_f32, zero_add]
  exact Finset.sum_congr rfl fun b _ => ref_entry P C i j b

/-- The reference's mean over the batch at a table entry. -/
theorem ref_mean (P : Vec Ideal S128x1024 .f32) (C : Vec Ideal S1024x1024 .f32) (i j : Fin 1024) :
    val_main_v15 (F := Ideal) P C (ix2 i j) = Ideal.div (∑ b : Fin 128, summand P C b i j) c128 := by
  rw [val_main_v15_apply, ref_batch, val_main_v14_apply, val_main_cst_2_apply]
  rfl

/-- The reference's sum of the means is the total over 128. -/
theorem ref_total (P : Vec Ideal S128x1024 .f32) (C : Vec Ideal S1024x1024 .f32) (i : S_.Idx) :
    val_main_v16 (F := Ideal) P C i = Ideal.div (total P C) c128 := by
  rw [val_main_v16_apply, val_main_cst_3_apply]
  show Ideal.ofBits .f32 0x00000000#32 + _ = _
  rw [Ideal.ofBits_zero_f32, zero_add, sum_idx2]
  rw [Finset.sum_congr rfl fun i _ => Finset.sum_congr rfl fun j _ => ref_mean P C i j]
  rw [c128_eq]
  have h128 : (0 : ℝ) < 128 := by norm_num
  rw [Finset.sum_congr rfl fun i _ => sum_div_coe Finset.univ (fun j => ∑ b : Fin 128, summand P C b i j) h128]
  rw [sum_div_coe Finset.univ (fun i => ∑ j : Fin 1024, ∑ b : Fin 128, summand P C b i j) h128]
  rfl

/-- The reference's result. -/
theorem ref_eq (P : Vec Ideal S128x1024 .f32) (C : Vec Ideal S1024x1024 .f32) (i : S_.Idx) :
    val_main_v18 (F := Ideal) P C i = Ideal.div (Ideal.div (total P C) c128) (count C + cEps) := by
  rw [val_main_v18_apply, val_main_v17_apply, ref_total, ref_count, val_main_cst_4_apply]
  rfl

end Cert.Proof.Bridge

end
-- ==== Proof.Bridge.lean ====
/-
  The two closed forms meet: the reference's result and the value the kernel's last grid point stores are both
  (total / 128) / (count + ε), with total the sum of (p[b,j] − p[b,i])² · c[i,j] over the whole table and all batch
  rows and count the number of positive weights.  The equality holds for all extended-real inputs: the only law
  used beyond re-association of finite sums is that the nonnegative real 1/128 distributes over them, which it
  does at the infinities as well.  The finiteness hypotheses of `bridge` are therefore not used.
-/
import proofs.«124996_j45552423141451_2_alg».proof.Proof.RefSum

noncomputable section

namespace Cert.Proof.Bridge

open Idealize.ShloMosaic

/-- The reference's result, at its one index, is what the kernel's last grid point stores. -/
theorem bridge' (P : Vec Ideal Cert.KernelIdeal.S128x1024 .f32) (C : Vec Ideal Cert.KernelIdeal.S1024x1024 .f32) :
    ∀ i, Cert.ReferenceIdeal.Read.val_main_v18 (F := Ideal) P C i
      = Cert.KernelIdeal.Spec.out (F := Ideal) P C (ValueIdx.ix2 0 0) :=
  fun i => (ref_eq P C i).trans (out_eq P C _).symm

/-- The same, as an equation between the reference's result array and the constant array. -/
theorem bridge_fun (P : Vec Ideal Cert.KernelIdeal.S128x1024 .f32) (C : Vec Ideal Cert.KernelIdeal.S1024x1024 .f32) :
    Cert.ReferenceIdeal.Read.val_main_v18 (F := Ideal) P C
      = fun _ => Cert.KernelIdeal.Spec.out (F := Ideal) P C (ValueIdx.ix2 0 0) :=
  funext (bridge' P C)

/-- The same under the finiteness of the inputs (which the law does not need). -/
theorem bridge (P : Vec Ideal Cert.KernelIdeal.S128x1024 .f32) (C : Vec Ideal Cert.KernelIdeal.S1024x1024 .f32)
    (hP : ∀ i, ∃ r : ℝ, P i = (r : EReal)) (hC : ∀ i, ∃ r : ℝ, C i = (r : EReal)) :
    ∀ i, Cert.ReferenceIdeal.Read.val_main_v18 (F := Ideal) P C i
      = Cert.KernelIdeal.Spec.out (F := Ideal) P C (ValueIdx.ix2 0 0) :=
  bridge' P C

end Cert.Proof.Bridge

end
-- ==== Proof.lean ====
/-
  The five conjuncts of the claim.

  The kernel walks an 8 × 8 grid of 128 × 128 blocks of the weight matrix; at each grid point it adds, into one
  running cell, the block's sum over the batch and over both block axes of (p[b, j] − p[b, i])² · w[i, j], and into
  a second cell the number of positive w[i, j]; after the last point it returns (first cell / 128) / (second cell + ε).
  The reference sums over the batch first, divides each of the 1024 × 1024 entries by 128, sums those, and divides
  by (count + ε).  On the extended reals the two agree: division by 128 is multiplication by a nonnegative real,
  which distributes over finite sums even at the infinities, and the rest is re-association and re-indexing of
  finite sums.  So the precondition is never opened.

  Frames: the two kernel programs by the body runs at every grid point under the pipeline's launch (the batch
  array is read through two windows, each holding half its share); the reference by its generated run.  The
  idealization rewrote nothing.
-/
import proofs.«124996_j45552423141451_2_alg».proof.Defs
import proofs.«124996_j45552423141451_2_alg».proof.Proof.Gen.Kernel
import proofs.«124996_j45552423141451_2_alg».proof.Proof.Gen.KernelIdeal
import proofs.«124996_j45552423141451_2_alg».proof.Proof.Gen.ReferenceIdeal
import proofs.«124996_j45552423141451_2_alg».proof.Proof.Gen.Pre_finite_inputs
import proofs.«124996_j45552423141451_2_alg».proof.Proof.Gen.ReferenceIdeal.Run
import proofs.«124996_j45552423141451_2_alg».proof.Proof.Gen.ReferenceIdeal.Read
import proofs.«124996_j45552423141451_2_alg».proof.Proof.K.Run
import proofs.«124996_j45552423141451_2_alg».proof.Proof.KI.Run
import proofs.«124996_j45552423141451_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same scalar: the kernel's is the last grid point's quotient, the reference's its
    last stage, and the two are one function of the argument arrays. -/
theorem algebraic : Cert.algebraic_KernelIdeal_ReferenceIdeal := by
  intro m ρ m' ρ' _ hagree
  refine ⟨fun c => fun _ => Cert.KernelIdeal.Spec.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (ValueIdx.ix2 0 0),
    Cert.KernelIdeal.Hand.run_scalar (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v18_eq, Cert.Proof.Bridge.bridge_fun]
  exact rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
